-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x768 : Shape := ⟨3, ![64, 32, 768]⟩
abbrev S64x512x768 : Shape := ⟨3, ![64, 512, 768]⟩
abbrev S128x768 : Shape := ⟨2, ![128, 768]⟩
abbrev S_ : Shape := ⟨0, ![]⟩

class Facts : Prop where
  bcast_S_S64x32x768 : S_.BroadcastsInDim S64x32x768 (![] : Fin 0 → Fin S64x32x768.rank)
  reducesTo_S64x32x768_S_d0_1_2 : S64x32x768.ReducesTo [0, 1, 2] S_
  h_S_ : 0 < S_.numel
  bcast_S_S64x512x768 : S_.BroadcastsInDim S64x512x768 (![] : Fin 0 → Fin S64x512x768.rank)
  reducesTo_S64x512x768_S_d0_1_2 : S64x512x768.ReducesTo [0, 1, 2] S_
  bcast_S_S128x768 : S_.BroadcastsInDim S128x768 (![] : Fin 0 → Fin S128x768.rank)
  reducesTo_S128x768_S_d0_1 : S128x768.ReducesTo [0, 1] S_

variable [Facts]

def fn {F : FTy → Type} [FloatOps F] (main_arg0 : FVec F S64x32x768 .f32) (main_arg1 : FVec F S64x512x768 .f32) (main_arg2 : FVec F S128x768 .f32) : IVec S_ 1 :=
  let main_v0 : FVec F S64x32x768 .f32 := Host.absf main_arg0
  let main_cst : FVec F S_ .f32 := constant S_ .f32 0x7F800000#32
  let main_v1 : FVec F S64x32x768 .f32 := broadcastInDim S64x32x768 ![] bcast_S_S64x32x768 main_cst
  let main_v2 : IVec S64x32x768 1 := cmpf .olt main_v0 main_v1
  let main_c : IVec S_ 1 := constantI S_ 1 1#1
  let main_v3 : IVec S_ 1 := (fun x v => Host.reduce IntOp.andi x v reducesTo_S64x32x768_S_d0_1_2 h_S_) main_v2 main_c
  let main_v4 : FVec F S64x512x768 .f32 := Host.absf main_arg1
  let main_cst_0 : FVec F S_ .f32 := constant S_ .f32 0x7F800000#32
  let main_v5 : FVec F S64x512x768 .f32 := broadcastInDim S64x512x768 ![] bcast_S_S64x512x768 main_cst_0
  let main_v6 : IVec S64x512x768 1 := cmpf .olt main_v4 main_v5
  let main_c_1 : IVec S_ 1 := constantI S_ 1 1#1
  let main_v7 : IVec S_ 1 := (fun x v => Host.reduce IntOp.andi x v reducesTo_S64x512x768_S_d0_1_2 h_S_) main_v6 main_c_1
  let main_v8 : IVec S_ 1 := andi main_v3 main_v7
  let main_v9 : FVec F S128x768 .f32 := Host.absf main_arg2
  let main_cst_2 : FVec F S_ .f32 := constant S_ .f32 0x7F800000#32
  let main_v10 : FVec F S128x768 .f32 := broadcastInDim S128x768 ![] bcast_S_S128x768 main_cst_2
  let main_v11 : IVec S128x768 1 := cmpf .olt main_v9 main_v10
  let main_c_3 : IVec S_ 1 := constantI S_ 1 1#1
  let main_v12 : IVec S_ 1 := (fun x v => Host.reduce IntOp.andi x v reducesTo_S128x768_S_d0_1 h_S_) main_v11 main_c_3
  let main_v13 : IVec S_ 1 := andi main_v8 main_v12
  main_v13
-- ==== Kernel.lean ====
abbrev S64x32x768 : Shape := ⟨3, ![64, 32, 768]⟩
abbrev S64x512x768 : Shape := ⟨3, ![64, 512, 768]⟩
abbrev S128x768 : Shape := ⟨2, ![128, 768]⟩
abbrev S2048x768 : Shape := ⟨2, ![2048, 768]⟩
abbrev S2048x128 : Shape := ⟨2, ![2048, 128]⟩
abbrev S1024x768 : Shape := ⟨2, ![1024, 768]⟩
abbrev S1024x128 : Shape := ⟨2, ![1024, 128]⟩
abbrev S1024 : Shape := ⟨1, ![1024]⟩
abbrev S1024x1 : Shape := ⟨2, ![1024, 1]⟩
abbrev S64x64 : Shape := ⟨2, ![64, 64]⟩
abbrev S8x512x768 : Shape := ⟨3, ![8, 512, 768]⟩
abbrev S8x64 : Shape := ⟨2, ![8, 64]⟩
abbrev S4096x768 : Shape := ⟨2, ![4096, 768]⟩
abbrev S4096x128 : Shape := ⟨2, ![4096, 128]⟩
abbrev S4096 : Shape := ⟨1, ![4096]⟩
abbrev S4096x1 : Shape := ⟨2, ![4096, 1]⟩
abbrev S512x128 : Shape := ⟨2, ![512, 128]⟩
abbrev S4096x512 : Shape := ⟨2, ![4096, 512]⟩
abbrev S8x512x16x32 : Shape := ⟨4, ![8, 512, 16, 32]⟩
abbrev S8x16x32 : Shape := ⟨3, ![8, 16, 32]⟩
abbrev S8x16 : Shape := ⟨2, ![8, 16]⟩

abbrev nBuf : Space → Nat
  | .hbm => 7
  | .vmem => 11
  | .smem => 0
  | _ => 0

abbrev bufTy : (tb : Table) → Fin (tcTables nBuf tb) → BufTy
  | .hbm, ⟨0, _⟩ => ⟨S64x32x768, .f32⟩
  | .hbm, ⟨1, _⟩ => ⟨S64x512x768, .f32⟩
  | .hbm, ⟨2, _⟩ => ⟨S128x768, .f32⟩
  | .hbm, ⟨3, _⟩ => ⟨S2048x768, .f32⟩
  | .hbm, ⟨4, _⟩ => ⟨S2048x128, .bf16⟩
  | .hbm, ⟨5, _⟩ => ⟨S64x64, .f32⟩
  | .hbm, ⟨6, _⟩ => ⟨S64x64, .f32⟩
  | .local _ .vmem, ⟨0, _⟩ => ⟨S1024x768, .f32⟩
  | .local _ .vmem, ⟨1, _⟩ => ⟨S1024x768, .f32⟩
  | .local _ .vmem, ⟨2, _⟩ => ⟨S128x768, .f32⟩
  | .local _ .vmem, ⟨3, _⟩ => ⟨S1024x128, .bf16⟩
  | .local _ .vmem, ⟨4, _⟩ => ⟨S1024x128, .bf16⟩
  | .local _ .vmem, ⟨5, _⟩ => ⟨S2048x128, .bf16⟩
  | .local _ .vmem, ⟨6, _⟩ => ⟨S8x512x768, .f32⟩
  | .local _ .vmem, ⟨7, _⟩ => ⟨S8x512x768, .f32⟩
  | .local _ .vmem, ⟨8, _⟩ => ⟨S128x768, .f32⟩
  | .local _ .vmem, ⟨9, _⟩ => ⟨S8x64, .f32⟩
  | .local _ .vmem, ⟨10, _⟩ => ⟨S8x64, .f32⟩
  | _, _ => ⟨S64x32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2048x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8x512x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S64x32x768_S2048x768 : S64x32x768.ShapeCasts S2048x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  bitsLt_bf16_f32 : FTy.bits .bf16 < FTy.bits .f32
  inb_S128x768_S128x768_0_0 : ∀ a, (![0, 0] : Fin 2 → Nat) a + S128x768.size a ≤ S128x768.size a
  h_S128x768 : 0 < S128x768.numel
  reduces_S1024x128_S1024 : S1024x128.Reduces [1] S1024
  shapeCasts_S1024_S1024x1 : S1024.ShapeCasts S1024x1
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S8x512x768_S8x512x768_0_0_0 : ∀ a, (![0, 0, 0] : Fin 3 → Nat) a + S8x512x768.size a ≤ S8x512x768.size a
  h_S8x512x768 : 0 < S8x512x768.numel
  shapeCasts_S8x512x768_S4096x768 : S8x512x768.ShapeCasts S4096x768
  reduces_S4096x128_S4096 : S4096x128.Reduces [1] S4096
  shapeCasts_S4096_S4096x1 : S4096.ShapeCasts S4096x1
  broadcasts_S4096x1_S4096x128 : S4096x1.Broadcasts S4096x128
  slices_S2048x128_o0_0_S512x128 : S2048x128.Slices ![0, 0] S512x128
  shapeCasts_S4096x512_S8x512x16x32 : S4096x512.ShapeCasts S8x512x16x32
  reduces_S8x512x16x32_S8x16x32 : S8x512x16x32.Reduces [1] S8x16x32
  reduces_S8x16x32_S8x16 : S8x16x32.Reduces [2] S8x16
  slices_S2048x128_o512_0_S512x128 : S2048x128.Slices ![512, 0] S512x128
  slices_S2048x128_o1024_0_S512x128 : S2048x128.Slices ![1024, 0] S512x128
  slices_S2048x128_o1536_0_S512x128 : S2048x128.Slices ![1536, 0] S512x128
  concatenates_S8x16_S8x16_S8x16_S8x16_S8x64_d1 : Shape.Concatenates [S8x16, S8x16, S8x16, S8x16] S8x64 1
  inb_S8x64_S8x64_0_0 : ∀ a, (![0, 0] : Fin 2 → Nat) a + S8x64.size a ≤ S8x64.size a
  h_S8x64 : 0 < S8x64.numel
  transposes_S64x64_S64x64_1_0 : S64x64.Transposes [1, 0] S64x64
  dot_S1024x768_S128x768_S1024x128_1_1_0_0_n_n_wf : DotDims.WF S1024x768 S128x768 S1024x128 [1] [1] [0] [0] [] []
  dot_S4096x768_S128x768_S4096x128_1_1_0_0_n_n_wf : DotDims.WF S4096x768 S128x768 S4096x128 [1] [1] [0] [0] [] []
  dot_S4096x128_S512x128_S4096x512_1_1_0_0_n_n_wf : DotDims.WF S4096x128 S512x128 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S2048x768.size a
  hwx0_0 : ∀ i : grid0.Coords, EltTy.bits .f32 = 32 ∨ (Rect.block (s := S2048x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x768.size a ≤ S128x768.size a
  hwx0_1 : ∀ i : grid0.Coords, EltTy.bits .f32 = 32 ∨ (Rect.block (s := S128x768) S128x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S2048x128.size a
  hwx0_2 : ∀ i : grid0.Coords, EltTy.bits .bf16 = 32 ∨ (Rect.block (s := S2048x128) S1024x128.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S2048x128.size a
  hwx1_0 : ∀ i : grid1.Coords, EltTy.bits .bf16 = 32 ∨ (Rect.block (s := S2048x128) S2048x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x768.size a ≤ S64x512x768.size a
  hwx1_1 : ∀ i : grid1.Coords, EltTy.bits .f32 = 32 ∨ (Rect.block (s := S64x512x768) S8x512x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x768.size a ≤ S128x768.size a
  hwx1_2 : ∀ i : grid1.Coords, EltTy.bits .f32 = 32 ∨ (Rect.block (s := S128x768) S128x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x64.size a ≤ S64x64.size a
  hwx1_3 : ∀ i : grid1.Coords, EltTy.bits .f32 = 32 ∨ (Rect.block (s := S64x64) S8x64.size (cc1_transform_3 i) (hinb1_3 i)).WholeWords (EltTy.packing .f32)

variable [Facts₀]

def dot_S1024x768_S128x768_S1024x128_1_1_0_0_n_n : DotDims S1024x768 S128x768 S1024x128 where
  lhsContracting := [1]
  rhsContracting := [1]
  lhsNonContracting := [0]
  rhsNonContracting := [0]
  lhsBatch := []
  rhsBatch := []
  wf := dot_S1024x768_S128x768_S1024x128_1_1_0_0_n_n_wf
def dot_S4096x768_S128x768_S4096x128_1_1_0_0_n_n : DotDims S4096x768 S128x768 S4096x128 where
  lhsContracting := [1]
  rhsContracting := [1]
  lhsNonContracting := [0]
  rhsNonContracting := [0]
  lhsBatch := []
  rhsBatch := []
  wf := dot_S4096x768_S128x768_S4096x128_1_1_0_0_n_n_wf
def dot_S4096x128_S512x128_S4096x512_1_1_0_0_n_n : DotDims S4096x128 S512x128 S4096x512 where
  lhsContracting := [1]
  rhsContracting := [1]
  lhsNonContracting := [0]
  rhsNonContracting := [0]
  lhsBatch := []
  rhsBatch := []
  wf := dot_S4096x128_S512x128_S4096x512_1_1_0_0_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S2048x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8x512x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S8x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x32x768 : Shape := ⟨3, ![64, 32, 768]⟩
abbrev S64x512x768 : Shape := ⟨3, ![64, 512, 768]⟩
abbrev S128x768 : Shape := ⟨2, ![128, 768]⟩
abbrev S64x32x128 : Shape := ⟨3, ![64, 32, 128]⟩
abbrev S_ : Shape := ⟨0, ![]⟩
abbrev S64x32 : Shape := ⟨2, ![64, 32]⟩
abbrev S64x32x1 : Shape := ⟨3, ![64, 32, 1]⟩
abbrev S64x512x128 : Shape := ⟨3, ![64, 512, 128]⟩
abbrev S64x512 : Shape := ⟨2, ![64, 512]⟩
abbrev S64x512x1 : Shape := ⟨3, ![64, 512, 1]⟩
abbrev S64x512x64x32 : Shape := ⟨4, ![64, 512, 64, 32]⟩
abbrev S64x64x32x512 : Shape := ⟨4, ![64, 64, 32, 512]⟩
abbrev S64x64x32 : Shape := ⟨3, ![64, 64, 32]⟩
abbrev S64x64 : Shape := ⟨2, ![64, 64]⟩

abbrev nBuf : Space → Nat
  | .hbm => 31
  | .vmem => 0
  | .smem => 0
  | _ => 0

abbrev bufTy : (tb : Table) → Fin (tcTables nBuf tb) → BufTy
  | .hbm, ⟨0, _⟩ => ⟨S64x32x768, .f32⟩
  | .hbm, ⟨1, _⟩ => ⟨S64x512x768, .f32⟩
  | .hbm, ⟨2, _⟩ => ⟨S128x768, .f32⟩
  | .hbm, ⟨3, _⟩ => ⟨S64x32x128, .f32⟩
  | .hbm, ⟨4, _⟩ => ⟨S64x32x128, .f32⟩
  | .hbm, ⟨5, _⟩ => ⟨S_, .f32⟩
  | .hbm, ⟨6, _⟩ => ⟨S64x32, .f32⟩
  | .hbm, ⟨7, _⟩ => ⟨S64x32x1, .f32⟩
  | .hbm, ⟨8, _⟩ => ⟨S64x32x1, .f32⟩
  | .hbm, ⟨9, _⟩ => ⟨S_, .f32⟩
  | .hbm, ⟨10, _⟩ => ⟨S64x32x1, .f32⟩
  | .hbm, ⟨11, _⟩ => ⟨S64x32x1, .f32⟩
  | .hbm, ⟨12, _⟩ => ⟨S64x32x128, .f32⟩
  | .hbm, ⟨13, _⟩ => ⟨S64x32x128, .f32⟩
  | .hbm, ⟨14, _⟩ => ⟨S64x512x128, .f32⟩
  | .hbm, ⟨15, _⟩ => ⟨S64x512x128, .f32⟩
  | .hbm, ⟨16, _⟩ => ⟨S_, .f32⟩
  | .hbm, ⟨17, _⟩ => ⟨S64x512, .f32⟩
  | .hbm, ⟨18, _⟩ => ⟨S64x512x1, .f32⟩
  | .hbm, ⟨19, _⟩ => ⟨S64x512x1, .f32⟩
  | .hbm, ⟨20, _⟩ => ⟨S_, .f32⟩
  | .hbm, ⟨21, _⟩ => ⟨S64x512x1, .f32⟩
  | .hbm, ⟨22, _⟩ => ⟨S64x512x1, .f32⟩
  | .hbm, ⟨23, _⟩ => ⟨S64x512x128, .f32⟩
  | .hbm, ⟨24, _⟩ => ⟨S64x512x128, .f32⟩
  | .hbm, ⟨25, _⟩ => ⟨S64x512x64x32, .f32⟩
  | .hbm, ⟨26, _⟩ => ⟨S64x64x32x512, .f32⟩
  | .hbm, ⟨27, _⟩ => ⟨S_, .f32⟩
  | .hbm, ⟨28, _⟩ => ⟨S64x64x32, .f32⟩
  | .hbm, ⟨29, _⟩ => ⟨S_, .f32⟩
  | .hbm, ⟨30, _⟩ => ⟨S64x64, .f32⟩
  | _, _ => ⟨S64x32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S64x32x128_S64x32_d2 : S64x32x128.ReducesTo [2] S64x32
  h_S_ : 0 < S_.numel
  bcast_S64x32_S64x32x1_0_1 : S64x32.BroadcastsInDim S64x32x1 (![0, 1] : Fin 2 → Fin S64x32x1.rank)
  bcast_S_S64x32x1 : S_.BroadcastsInDim S64x32x1 (![] : Fin 0 → Fin S64x32x1.rank)
  bcast_S64x32x1_S64x32x128_0_1_2 : S64x32x1.BroadcastsInDim S64x32x128 (![0, 1, 2] : Fin 3 → Fin S64x32x128.rank)
  reducesTo_S64x512x128_S64x512_d2 : S64x512x128.ReducesTo [2] S64x512
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S64x512x1_S64x512x128_0_1_2 : S64x512x1.BroadcastsInDim S64x512x128 (![0, 1, 2] : Fin 3 → Fin S64x512x128.rank)
  transposes_S64x512x64x32_S64x64x32x512_2_0_3_1 : S64x512x64x32.Transposes [2, 0, 3, 1] S64x64x32x512
  reducesTo_S64x64x32x512_S64x64x32_d3 : S64x64x32x512.ReducesTo [3] S64x64x32
  reducesTo_S64x64x32_S64x64_d2 : S64x64x32.ReducesTo [2] S64x64
  dot_S64x32x768_S128x768_S64x32x128_2_1_01_0_n_n_wf : DotDims.WF S64x32x768 S128x768 S64x32x128 [2] [1] [0, 1] [0] [] []
  dot_S64x512x768_S128x768_S64x512x128_2_1_01_0_n_n_wf : DotDims.WF S64x512x768 S128x768 S64x512x128 [2] [1] [0, 1] [0] [] []
  dot_S64x512x128_S64x32x128_S64x512x64x32_2_2_01_01_n_n_wf : DotDims.WF S64x512x128 S64x32x128 S64x512x64x32 [2] [2] [0, 1] [0, 1] [] []

variable [Facts₀]

def dot_S64x32x768_S128x768_S64x32x128_2_1_01_0_n_n : DotDims S64x32x768 S128x768 S64x32x128 where
  lhsContracting := [2]
  rhsContracting := [1]
  lhsNonContracting := [0, 1]
  rhsNonContracting := [0]
  lhsBatch := []
  rhsBatch := []
  wf := dot_S64x32x768_S128x768_S64x32x128_2_1_01_0_n_n_wf
def dot_S64x512x768_S128x768_S64x512x128_2_1_01_0_n_n : DotDims S64x512x768 S128x768 S64x512x128 where
  lhsContracting := [2]
  rhsContracting := [1]
  lhsNonContracting := [0, 1]
  rhsNonContracting := [0]
  lhsBatch := []
  rhsBatch := []
  wf := dot_S64x512x768_S128x768_S64x512x128_2_1_01_0_n_n_wf
def dot_S64x512x128_S64x32x128_S64x512x64x32_2_2_01_01_n_n : DotDims S64x512x128 S64x32x128 S64x512x64x32 where
  lhsContracting := [2]
  rhsContracting := [2]
  lhsNonContracting := [0, 1]
  rhsNonContracting := [0, 1]
  lhsBatch := []
  rhsBatch := []
  wf := dot_S64x512x128_S64x32x128_S64x512x64x32_2_2_01_01_n_n_wf

class Facts : Prop extends Facts₀ where

variable [Facts]
-- ==== Proof.Spec.lean ====
/-
  Late-interaction retrieval scores, as one function of the three argument arrays.

  A token's 768 hidden features are projected on the 128 rows of `W` and the projection is divided by its
  Euclidean norm (kept above a small floor), giving a unit vector.  The score of a query `q` against a document `p`
  sums, over the query's 32 tokens, the largest inner product of that token's unit vector with the unit vectors of
  the document's 512 tokens.  Everything is read on the extended reals: a sum is a finite sum, a maximum is a fold of
  `max` from the word both programs start from, and the quotient and the square root are the ideal instance's.

  The kernel computes the same numbers in two passes — first all query rows, flattened to 2048 rows, then the scores
  of eight documents at a time against all queries — so the two intermediate arrays are named here as well
  (`queryRows`, `docScores`), with the two facts that tie them back to `score`.
-/
import Idealize.ShloMosaic.PureOps.Ideal
import Idealize.ShloMosaic.Lib.ValueIdx

noncomputable section

open scoped BigOperators

namespace LateInteraction

open Idealize.ShloMosaic Idealize.ShloMosaic.ValueIdx

/-- The floor under a norm: the f32 word both programs write for `1e-12`. -/
def normFloor : EReal := Ideal.ofBits .f32 0x2B8CBCCC#32

/-- Where both programs start a maximum: the f32 word of `-∞`. -/
def maxStart : EReal := Ideal.ofBits .f32 0xFF800000#32

/-- A token's projection on row `h` of `W`: the inner product over the 768 hidden features. -/
def project (x : Fin 768 → EReal) (W : (⟨2, ![128, 768]⟩ : Shape).Idx → EReal) (h : Fin 128) : EReal :=
  ∑ k : Fin 768, x k * W (ix2 h k)

/-- A 128-vector divided by its Euclidean norm, the norm kept above the floor. -/
def unitize (P : Fin 128 → EReal) (h : Fin 128) : EReal :=
  Ideal.div (P h) (max (Ideal.sqrt (∑ h' : Fin 128, P h' * P h')) normFloor)

/-- The unit vector of token `i` of query `q`. -/
def queryEmb (a0 : (⟨3, ![64, 32, 768]⟩ : Shape).Idx → EReal) (W : (⟨2, ![128, 768]⟩ : Shape).Idx → EReal)
    (q : Fin 64) (i : Fin 32) : Fin 128 → EReal :=
  unitize (project (fun k => a0 (ix3 q i k)) W)

/-- The unit vector of token `j` of document `p`. -/
def docEmb (a1 : (⟨3, ![64, 512, 768]⟩ : Shape).Idx → EReal) (W : (⟨2, ![128, 768]⟩ : Shape).Idx → EReal)
    (p : Fin 64) (j : Fin 512) : Fin 128 → EReal :=
  unitize (project (fun k => a1 (ix3 p j k)) W)

/-- For each of 32 query tokens the best inner product among 512 document tokens, summed over the query tokens. -/
def maxSim (Q : Fin 32 → Fin 128 → EReal) (D : Fin 512 → Fin 128 → EReal) : EReal :=
  ∑ i : Fin 32, (Finset.univ : Finset (Fin 512)).fold max maxStart (fun j => ∑ h : Fin 128, D j h * Q i h)

/-- The score array: entry `(q, p)` is query `q` against document `p`. -/
def score (a0 : (⟨3, ![64, 32, 768]⟩ : Shape).Idx → EReal) (a1 : (⟨3, ![64, 512, 768]⟩ : Shape).Idx → EReal)
    (W : (⟨2, ![128, 768]⟩ : Shape).Idx → EReal) : (⟨2, ![64, 64]⟩ : Shape).Idx → EReal :=
  fun j => maxSim (queryEmb a0 W (j 0)) (docEmb a1 W (j 1))

/-! ## The two intermediate arrays of the two-pass computation -/

/-- Row `32 q + i` of the flattened queries is token `i` of query `q`. -/
def queryRow (q : Fin 64) (i : Fin 32) : Fin 2048 := ⟨32 * q.val + i.val, by omega⟩

/-- Row `512 p + j` of a block of eight documents, flattened, is token `j` of the block's document `p`. -/
def docRow (p : Fin 8) (j : Fin 512) : Fin 4096 := ⟨512 * p.val + j.val, by omega⟩

/-- All query tokens' unit vectors, one per row of the flattened 2048 × 768 query array. -/
def queryRows (a0r : (⟨2, ![2048, 768]⟩ : Shape).Idx → EReal) (W : (⟨2, ![128, 768]⟩ : Shape).Idx → EReal) :
    (⟨2, ![2048, 128]⟩ : Shape).Idx → EReal :=
  fun j => unitize (project (fun k => a0r (ix2 (j 0) k)) W) (j 1)

/-- The scores with documents along the rows: entry `(p, q)`, from the flattened query unit vectors `qn`. -/
def docScores (qn : (⟨2, ![2048, 128]⟩ : Shape).Idx → EReal) (a1 : (⟨3, ![64, 512, 768]⟩ : Shape).Idx → EReal)
    (W : (⟨2, ![128, 768]⟩ : Shape).Idx → EReal) : (⟨2, ![64, 64]⟩ : Shape).Idx → EReal :=
  fun j => maxSim (fun i h => qn (ix2 (queryRow (j 1) i) h)) (docEmb a1 W (j 0))

/-- The two passes compose to the score: when the flattened query array is the query array read row-major
    (`hflat`), the document-major scores over the query rows, read transposed, are the scores. -/
theorem docScores_queryRows (a0 : (⟨3, ![64, 32, 768]⟩ : Shape).Idx → EReal)
    (a0r : (⟨2, ![2048, 768]⟩ : Shape).Idx → EReal) (a1 : (⟨3, ![64, 512, 768]⟩ : Shape).Idx → EReal)
    (W : (⟨2, ![128, 768]⟩ : Shape).Idx → EReal)
    (hflat : ∀ (q : Fin 64) (i : Fin 32) (k : Fin 768), a0r (ix2 (queryRow q i) k) = a0 (ix3 q i k))
    (q p : Fin 64) :
    docScores (queryRows a0r W) a1 W (ix2 p q) = score a0 a1 W (ix2 q p) := by
  unfold docScores score queryRows queryEmb
  show maxSim (fun i h => unitize (project (fun k => a0r (ix2 (queryRow q i) k)) W) h) (docEmb a1 W p)
    = maxSim (fun i => unitize (project (fun k => a0 (ix3 q i k)) W)) (docEmb a1 W p)
  refine congrArg (fun Q => maxSim Q (docEmb a1 W p)) (funext fun i => ?_)
  exact congrArg (fun x => unitize (project x W)) (funext fun k => hflat q i k)

end LateInteraction

end
-- ==== Proof.KernelRun.lean ====
/-
  The idealized kernel's run with its result array named.

  The program is four segments: the reshape of the queries, the first launch (query unit vectors), the second launch
  (document-major scores), the final transpose.  Its execution ends with every buffer at the contents obtained by folding
  these four segments over the launch memory; here that fact is stated for the result array as well as for the three
  arguments, so that the value of the result can be read off segment by segment.
-/
import proofs.«134453_j1288490189594_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents and
    the three arguments as launched. -/
theorem run_result : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.RunValue

end
-- ==== Proof.QueryPayloadProj.lean ====
import proofs.«134453_j1288490189594_2_alg».proof.Proof.Spec
import proofs.«134453_j1288490189594_2_alg».proof.Proof.Gen.KernelIdeal
import Idealize.ShloMosaic.Lib.ValueIdx
import Idealize.ShloMosaic.PureOps.Ideal.Laws

noncomputable section

open scoped BigOperators

namespace Cert.KernelIdeal.QueryValue

open Idealize.ShloMosaic Idealize.ShloMosaic.ValueIdx
open Cert.KernelIdeal LateInteraction

/-- The dot's dimension numbers: rows of the left operand against rows of the right, contracting the 768 axis of both. -/
abbrev projDims : DotDims S1024x768 S128x768 S1024x128 := dot_S1024x768_S128x768_S1024x128_1_1_0_0_n_n

/-- The left operand's index at output `(r, h)` and contraction coordinate `k` is `(r, k)`. -/
theorem projDims_lhsIdx (r : Fin 1024) (h : Fin 128) (k : Fin 768) :
    projDims.lhsIdx (ix2 r h) ((contrEquiv1 projDims 768 rfl rfl).symm k) = ix2 r k := by
  have hk := contrEquiv1_symm_val projDims 768 rfl rfl k
  refine funext fun a => Fin.ext ?_
  match a with
  | ⟨0, _⟩ =>
    show (projDims.lhsIdx (ix2 r h) _ 0).val = r.val
    unfold DotDims.lhsIdx
    rw [dif_neg (show ¬(0 : Fin S1024x768.rank) ∈ projDims.lhsBatch by decide),
      dif_pos (show (0 : Fin S1024x768.rank) ∈ projDims.lhsNonContracting by decide)]
    rfl
  | ⟨1, _⟩ =>
    exact (projDims.lhsIdx_val_of_single rfl (ix2 r h) _).trans hk

/-- The right operand's index at output `(r, h)` and contraction coordinate `k` is `(h, k)`. -/
theorem projDims_rhsIdx (r : Fin 1024) (h : Fin 128) (k : Fin 768) :
    projDims.rhsIdx (ix2 r h) ((contrEquiv1 projDims 768 rfl rfl).symm k) = ix2 h k := by
  have hk := contrEquiv1_symm_val projDims 768 rfl rfl k
  refine funext fun a => Fin.ext ?_
  match a with
  | ⟨0, _⟩ =>
    show (projDims.rhsIdx (ix2 r h) _ 0).val = h.val
    unfold DotDims.rhsIdx
    rw [dif_neg (show ¬(0 : Fin S128x768.rank) ∈ projDims.rhsBatch by decide),
      dif_pos (show (0 : Fin S128x768.rank) ∈ projDims.rhsNonContracting by decide)]
    rfl
  | ⟨1, _⟩ =>
    exact (projDims.rhsIdx_val_of_single rfl (ix2 r h) _).trans hk

/-- The product accumulated into the zero splat, at entry `(r, h)`: row `r` of the left operand projected on row `h`
    of the right one, a sum over the 768 features. -/
theorem matmul_zero_apply (a : FVec Ideal S1024x768 .bf16) (b : FVec Ideal S128x768 .bf16) (r : Fin 1024) (h : Fin 128) :
    matmul dot_S1024x768_S128x768_S1024x128_1_1_0_0_n_n none a b (constant (F := Ideal) S1024x128 .f32 0x00000000#32) (ix2 r h)
      = project (fun k => a (ix2 r k)) b h := by
  refine (Ideal.matmul_constant_zero_apply projDims none a b (ix2 r h)).trans ?_
  refine (Equiv.sum_comp (contrEquiv1 projDims 768 rfl rfl).symm _).symm.trans ?_
  unfold project
  refine Finset.sum_congr rfl fun k _ => ?_
  rw [projDims_lhsIdx r h k, projDims_rhsIdx r h k]

end Cert.KernelIdeal.QueryValue

end
-- ==== Proof.QueryPayloadNorm.lean ====
import proofs.«134453_j1288490189594_2_alg».proof.Proof.Spec
import proofs.«134453_j1288490189594_2_alg».proof.Proof.Gen.KernelIdeal
import Idealize.ShloMosaic.Lib.Pipeline.Value
import Idealize.ShloMosaic.Lib.ValueIdx
import Idealize.ShloMosaic.PureOps.Ideal.Laws

noncomputable section

open scoped BigOperators

namespace Cert.KernelIdeal.QueryValue

open Idealize.ShloMosaic Idealize.ShloMosaic.ValueIdx
open Cert.KernelIdeal LateInteraction

/-- The sum over the 128 columns of the squares of a 1024 × 128 array, at row `r`. -/
theorem rowSumSq_apply (P : FVec Ideal S1024x128 .f32) (hacc : (0x00000000#32 : BitVec 32) = 0x00000000#32) (r : Fin 1024) :
    multiReduction (F := Ideal) .add [1] S1024 (mulf P P) 0x00000000#32 Gen.reduces_S1024x128_S1024 (.inl rfl) hacc (ix1 r)
      = ∑ h' : Fin 128, P (ix2 r h') * P (ix2 r h') := by
  refine (Ideal.multiReduction_add_single (mulf P P) 0x00000000#32 Gen.reduces_S1024x128_S1024 (.inl rfl) hacc (ix1 r)).trans ?_
  show ∑ k : Fin 128, mulf P P (Gen.reduces_S1024x128_S1024.lift (ix1 r) k) = _
  refine Finset.sum_congr rfl fun k _ => ?_
  have e : Gen.reduces_S1024x128_S1024.lift (ix1 r) k = ix2 r k :=
    funext fun a => Fin.ext (by match a with | ⟨0, _⟩ => rfl | ⟨1, _⟩ => rfl)
  rw [e]
  rfl

/-- A length-1024 vector viewed as a 1024 × 1 column reads, at `(r, u)`, the vector at `r`. -/
theorem column_apply (x : FVec Ideal S1024 .f32) (r : Fin 1024) (u : Fin 1) :
    shapeCast S1024x1 x Gen.shapeCasts_S1024_S1024x1 (ix2 r u) = x (ix1 r) :=
  shapeCast_apply x Gen.shapeCasts_S1024_S1024x1 _ _ (by
    have hu : u.val = 0 := by omega
    rw [Shape.rowMajor_val_two, Shape.rowMajor_val_one]
    show r.val = r.val * 1 + u.val
    rw [hu, Nat.mul_one, Nat.add_zero])

/-- A 1024 × 1 column repeated along 128 columns reads, at `(r, h)`, the column at `(r, 0)`. -/
theorem spread_apply (x : FVec Ideal S1024x1 .f32) (r : Fin 1024) (h : Fin 128) :
    broadcastTo S1024x128 x Gen.broadcasts_S1024x1_S1024x128 (ix2 r h) = x (ix2 r (0 : Fin 1)) :=
  broadcastTo_apply x Gen.broadcasts_S1024x1_S1024x128 _ _ (fun a => match a with
    | ⟨0, _⟩ => by show r.val = if (1024 : Nat) = 1 then 0 else r.val; rw [if_neg (by decide)]
    | ⟨1, _⟩ => by show (0 : Nat) = if (1 : Nat) = 1 then 0 else h.val; rw [if_pos rfl])

/-- The normalising tail of the first pass, for any 1024 × 128 array `P`: each entry divided by the square root of its
    row's sum of squares, the root kept above the floor. At `(r, h)` it is the unit vector of row `r`, column `h`. -/
theorem normTail_apply (P : FVec Ideal S1024x128 .f32) (hacc : (0x00000000#32 : BitVec 32) = 0x00000000#32)
    (r : Fin 1024) (h : Fin 128) :
    (truncf .bf16
      (divf P
        (broadcastTo S1024x128
          (maximumf
            (sqrt (shapeCast S1024x1
              (multiReduction (F := Ideal) .add [1] S1024 (mulf P P) 0x00000000#32 Gen.reduces_S1024x128_S1024 (.inl rfl) hacc)
              Gen.shapeCasts_S1024_S1024x1))
            (broadcast S1024x1 (Scalar.ofBits (F := Ideal) .f32 0x2B8CBCCC#32)))
          Gen.broadcasts_S1024x1_S1024x128))
      Gen.bitsLt_bf16_f32 : FVec Ideal S1024x128 .bf16) (ix2 r h)
      = unitize (fun h' => P (ix2 r h')) h := by
  rw [truncf_apply, divf_apply, spread_apply, maximumf_apply, broadcast_apply]
  unfold unitize
  refine congrArg (fun z => Ideal.div (P (ix2 r h)) (max z _)) ?_
  show Ideal.sqrt (shapeCast S1024x1 _ Gen.shapeCasts_S1024_S1024x1 (ix2 r (0 : Fin 1))) = _
  rw [column_apply, rowSumSq_apply]

end Cert.KernelIdeal.QueryValue

end
-- ==== Proof.QueryPayload.lean ====
import proofs.«134453_j1288490189594_2_alg».proof.Proof.Spec
import proofs.«134453_j1288490189594_2_alg».proof.Proof.Gen.KernelIdeal.Skeleton
import proofs.«134453_j1288490189594_2_alg».proof.Proof.QueryPayloadProj
import proofs.«134453_j1288490189594_2_alg».proof.Proof.QueryPayloadNorm

noncomputable section

open scoped BigOperators

namespace Cert.KernelIdeal.QueryValue

open Idealize.ShloMosaic Idealize.ShloMosaic.ValueIdx Idealize.ShloMosaic.TcCoe Idealize.SL.Sem
open Cert.KernelIdeal LateInteraction

/-- The first pass's body at an entry: row `r` of the block projected on `W` and divided by its norm, column `h`. -/
theorem queryPayload_apply (x0 : Vec Ideal S1024x768 .f32) (x1 : Vec Ideal S128x768 .f32) (r : Fin 1024) (h : Fin 128) :
    Gen.k0_pay1 (F := Ideal) x0 x1 (ix2 r h) = unitize (project (fun k => x0 (ix2 r k)) x1) h := by
  unfold Gen.k0_pay1
  -- the tail after the product is the unit vector of the product's row
  refine (normTail_apply _ rfl r h).trans ?_
  -- and the product's row is the projection of the block's row: the format changes are the identity on the extended
  -- reals, and so is the cast of the block to its own shape
  refine congrArg (fun P : Fin 128 → EReal => unitize P h) (funext fun h' => ?_)
  refine (matmul_zero_apply _ _ r h').trans ?_
  rw [shapeCast_self]
  rfl

end Cert.KernelIdeal.QueryValue

end
-- ==== Proof.QueryArray.lean ====
/-
  The first launch's output array.

  The launch walks the flattened 2048 × 768 query array in two blocks of 1024 rows; `W` is resident.  At block `b`
  the body turns rows `1024 b + r` into their unit vectors, so what it writes back is block `b` of ONE array, the
  unit vectors of all 2048 rows (`queryRows`); the two blocks cover the 2048 × 128 output, which therefore ends
  holding that array.  Everything is stated at the contents `V` the launch is entered with.
-/
import proofs.«134453_j1288490189594_2_alg».proof.Proof.Spec
import proofs.«134453_j1288490189594_2_alg».proof.Proof.Gen.KernelIdeal.Frame
import Idealize.ShloMosaic.Lib.Pipeline.Value
import proofs.«134453_j1288490189594_2_alg».proof.Proof.QueryPayload

set_option maxRecDepth 16384

noncomputable section

open scoped BigOperators

namespace Cert.KernelIdeal.QueryValue

open Cert.KernelIdeal Cert.KernelIdeal.Gen Idealize.ShloMosaic Idealize.ShloMosaic.ValueIdx Idealize.ShloMosaic.TcCoe Idealize.SL.Sem
open Idealize.ShloMosaic.Pipeline (Dat)
open LateInteraction

/-- What the body computes from a block `x0` of the flattened queries and a copy `x1` of `W`, at a block entry `y`, is
    the unit-vector array at the array entry `i` under it: `x0` is rows `1024 b + ·` of the array `A0` (through the
    block's embedding `e0`), `i` is `y` moved `b` blocks down. -/
theorem queryBlock_eq (A0 : S2048x768.Idx → EReal) (W : S128x768.Idx → EReal)
    (x0 : Vec Ideal S1024x768 .f32) (x1 : Vec Ideal S128x768 .f32) (e0 : S1024x768.Idx → S2048x768.Idx) (b : Nat)
    (hx0 : ∀ y, x0 y = A0 (e0 y)) (he0 : ∀ y, (e0 y 0).val = b * 1024 + 1 * (y 0).val ∧ (e0 y 1).val = 0 * 768 + 1 * (y 1).val)
    (hx1 : x1 = W)
    (y : S1024x128.Idx) (i : S2048x128.Idx) (hi0 : (i 0).val = b * 1024 + 1 * (y 0).val) (hi1 : (i 1).val = 0 * 128 + 1 * (y 1).val) :
    Gen.k0_pay1 (F := Ideal) x0 x1 y = queryRows A0 W i := by
  obtain ⟨r, h, rfl⟩ : ∃ (r : Fin 1024) (h : Fin 128), y = ix2 r h := ⟨y 0, y 1, eq_ix2 y⟩
  obtain ⟨i0, i1, rfl⟩ : ∃ (i0 : Fin 2048) (i1 : Fin 128), i = ix2 i0 i1 := ⟨i 0, i 1, eq_ix2 i⟩
  have hi0' : i0.val = b * 1024 + 1 * r.val := hi0
  have hi1' : i1 = h := Fin.ext (by have : i1.val = 0 * 128 + 1 * h.val := hi1; omega)
  subst hi1' hx1
  rw [queryPayload_apply]
  show unitize (project (fun k => x0 (ix2 r k)) x1) i1 = unitize (project (fun k => A0 (ix2 i0 k)) x1) i1
  refine congrArg (fun x => unitize (project x x1) i1) (funext fun k => ?_)
  rw [hx0]
  refine congrArg A0 (funext fun a => Fin.ext ?_)
  obtain ⟨h0, h1⟩ := he0 (ix2 r k)
  match a with
  | ⟨0, _⟩ => exact h0.trans hi0'.symm
  | ⟨1, _⟩ => exact h1.trans (by show 0 * 768 + 1 * k.val = k.val; omega)

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps, decided over the two grid points: the query window moves with the output window along
    the rows, `W`'s window stays, and the output's block index is 0 or 1. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 1 :=
  (by decide +kernel : ∀ t : Fin grid0.N, _)

/-- Each of the two row blocks is some point's. -/
theorem index_onto : ∀ q0 : Fin 2, ∃ t : Fin cfg0.N, win0_2.index t = ![q0.val, 0] :=
  (by decide +kernel : ∀ q0 : Fin 2, ∃ t : Fin grid0.N, win0_2.index t = ![q0.val, 0])

/-- What point `t` writes back is block `t` of the unit vectors of all rows. -/
theorem flushed_eq (c : Dev nD) (t : Fin cfg0.N) :
    (dat0 V c).flushed 2 t = ((cfg0.win 2).blk t).view.read (Elt Ideal) (queryRows (V c main_v0) (V c main_arg2)) := by
  show (cfg0.win 2).cut (grid0.coords t) ((dat0 V c).after 2 t) = _
  rw [after0_2]
  unfold out0_2
  rw [View.canon_unit_zero offsets_zero]
  simp only [View.ld_unit_zero (S := S1024x768) offsets_zero, View.ld_unit_zero (S := S128x768) offsets_zero]
  obtain ⟨e0, e1, e2, e3, e4, e5⟩ := index_facts t
  funext j
  refine queryBlock_eq (V c main_v0) (V c main_arg2) (iblk0 V c 0 t) (iblk0 V c 1 t)
    (fun y => ((cfg0.win 0).blk t).view.emb y) (win0_2.index t (0 : Fin 2)) (fun y => rfl) (fun y => ⟨?_, ?_⟩) ?_ j
    (((cfg0.win 2).blk t).view.emb j) ?_ ?_
  · show win0_0.index t (0 : Fin 2) * 1024 + 1 * (y 0).val = _; rw [e0]
  · show win0_0.index t (1 : Fin 2) * 768 + 1 * (y 1).val = _; rw [e1]
  · funext y
    show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; rw [e2]; omega
    | ⟨1, _⟩ => show win0_1.index t (1 : Fin 2) * 768 + 1 * (y 1).val = (y 1).val; rw [e3]; omega
  · show win0_2.index t (0 : Fin 2) * 1024 + 1 * (j 0).val = _; rfl
  · show win0_2.index t (1 : Fin 2) * 128 + 1 * (j 1).val = _; rw [e4]

/-- An entry of the output array is in point `t`'s block iff each coordinate is in the block's range on its axis. -/
theorem mem_blk (t : Fin cfg0.N) (i : S2048x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v1).slice (win0_2.rect t)).set ↔ _
  rw [View.set_slice_whole, Rect.mem_set_unit]
  exact Iff.rfl

/-- Every entry of the 2048 × 128 output is in the block of the point whose block index is its row over 1024. -/
theorem cover (i : S2048x128.Idx) :
    ∃ t : Fin cfg0.N, (cfg0.win 2).flush t = true ∧ i ∈ ((cfg0.win 2).blk t).view.set := by
  have hi0 : (i 0).val < 2048 := (i 0).isLt
  have hi1 : (i 1).val < 128 := (i 1).isLt
  obtain ⟨t, ht⟩ := index_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- The output array after the launch: the unit vectors of all 2048 rows of the flattened queries it was entered with. -/
theorem queryArray (c : Dev nD) :
    (dat0 V c).arrAt 2 cfg0.N = queryRows (V c main_v0) (V c main_arg2) :=
  (dat0 V c).arrAt_eq_of_cover 2 _ (fun t _ => flushed_eq V c t) cover

end Cert.KernelIdeal.QueryValue

end
-- ==== Proof.DocUnitProj.lean ====
/-
  The projection step of the second pass, read at an entry.

  The block of eight documents, 8 × 512 × 768, is viewed as 4096 rows of 768 features: row `512 pl + j` is token `j`
  of document `pl`, because both arrangements list the entries in the same row-major order.  The product of the
  flattened block with `W` contracts the 768 features of both operands, so its entry `(512 pl + j, h)` is the inner
  product of that token with row `h` of `W`: the token's projection.
-/
import proofs.«134453_j1288490189594_2_alg».proof.Proof.Spec
import proofs.«134453_j1288490189594_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.DocValue

open Idealize.ShloMosaic Idealize.ShloMosaic.ValueIdx Idealize.ShloMosaic.TcCoe Idealize.SL.Sem
open Cert.KernelIdeal LateInteraction

/-- The flattened block at row `512 pl + j`, column `k`, is the block at `(pl, j, k)`: the two indices have the same
    row-major position. -/
theorem docFlat_apply (x : FVec Ideal S8x512x768 .f32) (pl : Fin 8) (j : Fin 512) (k : Fin 768) :
    shapeCast S4096x768 x Facts₀.shapeCasts_S8x512x768_S4096x768 (ix2 (docRow pl j) k) = x (ix3 pl j k) := by
  refine shapeCast_apply x _ (ix2 (docRow pl j) k) (ix3 pl j k) ?_
  rw [Shape.rowMajor_val_three, Shape.rowMajor_val_two]
  show (pl.val * 512 + j.val) * 768 + k.val = (512 * pl.val + j.val) * 768 + k.val
  omega

/-- Row coordinate of the left operand's index: the output's row. -/
theorem docDot_lhs0 (i : S4096x128.Idx) (q : dot_S4096x768_S128x768_S4096x128_1_1_0_0_n_n.contr.Idx) :
    (dot_S4096x768_S128x768_S4096x128_1_1_0_0_n_n.lhsIdx i q 0).val = (i 0).val := by
  unfold DotDims.lhsIdx
  rw [dif_neg (show ¬(0 : Fin S4096x768.rank) ∈ dot_S4096x768_S128x768_S4096x128_1_1_0_0_n_n.lhsBatch by decide),
    dif_pos (show (0 : Fin S4096x768.rank) ∈ dot_S4096x768_S128x768_S4096x128_1_1_0_0_n_n.lhsNonContracting by decide)]
  rfl

/-- Column coordinate of the left operand's index: the contraction coordinate. -/
theorem docDot_lhs1 (i : S4096x128.Idx) (q : dot_S4096x768_S128x768_S4096x128_1_1_0_0_n_n.contr.Idx) :
    (dot_S4096x768_S128x768_S4096x128_1_1_0_0_n_n.lhsIdx i q 1).val = (q ⟨0, by decide⟩).val :=
  dot_S4096x768_S128x768_S4096x128_1_1_0_0_n_n.lhsIdx_val_of_single rfl i q

/-- Row coordinate of the right operand's index: the output's column. -/
theorem docDot_rhs0 (i : S4096x128.Idx) (q : dot_S4096x768_S128x768_S4096x128_1_1_0_0_n_n.contr.Idx) :
    (dot_S4096x768_S128x768_S4096x128_1_1_0_0_n_n.rhsIdx i q 0).val = (i 1).val := by
  unfold DotDims.rhsIdx
  rw [dif_neg (show ¬(0 : Fin S128x768.rank) ∈ dot_S4096x768_S128x768_S4096x128_1_1_0_0_n_n.rhsBatch by decide),
    dif_pos (show (0 : Fin S128x768.rank) ∈ dot_S4096x768_S128x768_S4096x128_1_1_0_0_n_n.rhsNonContracting by decide)]
  rfl

/-- Column coordinate of the right operand's index: the contraction coordinate. -/
theorem docDot_rhs1 (i : S4096x128.Idx) (q : dot_S4096x768_S128x768_S4096x128_1_1_0_0_n_n.contr.Idx) :
    (dot_S4096x768_S128x768_S4096x128_1_1_0_0_n_n.rhsIdx i q 1).val = (q ⟨0, by decide⟩).val :=
  dot_S4096x768_S128x768_S4096x128_1_1_0_0_n_n.rhsIdx_val_of_single rfl i q

/-- The left operand's index of the product at output `(ρ, h)` and contraction coordinate `k` is `(ρ, k)`. -/
theorem docDot_lhsIdx (ρ : Fin 4096) (h : Fin 128) (k : Fin 768) :
    dot_S4096x768_S128x768_S4096x128_1_1_0_0_n_n.lhsIdx (ix2 ρ h)
        ((contrEquiv1 dot_S4096x768_S128x768_S4096x128_1_1_0_0_n_n 768 rfl rfl).symm k) = ix2 ρ k := by
  have hk := contrEquiv1_symm_val dot_S4096x768_S128x768_S4096x128_1_1_0_0_n_n 768 rfl rfl k
  exact funext fun a => Fin.ext (by
    match a with
    | ⟨0, _⟩ => exact docDot_lhs0 _ _
    | ⟨1, _⟩ => exact (docDot_lhs1 _ _).trans hk)

/-- The right operand's index there is `(h, k)`. -/
theorem docDot_rhsIdx (ρ : Fin 4096) (h : Fin 128) (k : Fin 768) :
    dot_S4096x768_S128x768_S4096x128_1_1_0_0_n_n.rhsIdx (ix2 ρ h)
        ((contrEquiv1 dot_S4096x768_S128x768_S4096x128_1_1_0_0_n_n 768 rfl rfl).symm k) = ix2 h k := by
  have hk := contrEquiv1_symm_val dot_S4096x768_S128x768_S4096x128_1_1_0_0_n_n 768 rfl rfl k
  exact funext fun a => Fin.ext (by
    match a with
    | ⟨0, _⟩ => exact docDot_rhs0 _ _
    | ⟨1, _⟩ => exact (docDot_rhs1 _ _).trans hk)

/-- The product into the zero splat, at `(ρ, h)`: the sum over the 768 features of row `ρ` of the left operand times
    row `h` of the right one. -/
theorem docDot_apply (A : FVec Ideal S4096x768 .bf16) (B : FVec Ideal S128x768 .bf16) (ρ : Fin 4096) (h : Fin 128) :
    matmul dot_S4096x768_S128x768_S4096x128_1_1_0_0_n_n none A B (constant (F := Ideal) S4096x128 .f32 0x00000000#32) (ix2 ρ h)
      = ∑ k : Fin 768, A (ix2 ρ k) * B (ix2 h k) := by
  simp only [matmul]
  rw [Ideal.matmul_constant_zero_apply,
    ← Equiv.sum_comp (contrEquiv1 dot_S4096x768_S128x768_S4096x128_1_1_0_0_n_n 768 rfl rfl).symm]
  refine Finset.sum_congr rfl fun k _ => ?_
  rw [docDot_lhsIdx, docDot_rhsIdx]

/-- The projection of the flattened block at `(512 pl + j, h)` is token `j` of document `pl` projected on row `h`. -/
theorem docProj_apply (w : FVec Ideal S128x768 .f32) (x : FVec Ideal S8x512x768 .f32) (pl : Fin 8) (j : Fin 512) (h : Fin 128) :
    matmul dot_S4096x768_S128x768_S4096x128_1_1_0_0_n_n none
        (truncf .bf16 (shapeCast S4096x768 x Facts₀.shapeCasts_S8x512x768_S4096x768) Facts₀.bitsLt_bf16_f32)
        (truncf .bf16 w Facts₀.bitsLt_bf16_f32)
        (constant (F := Ideal) S4096x128 .f32 0x00000000#32) (ix2 (docRow pl j) h)
      = project (fun k => x (ix3 pl j k)) w h := by
  rw [docDot_apply]
  unfold project
  refine Finset.sum_congr rfl fun k _ => ?_
  rw [truncf_apply, truncf_apply, docFlat_apply]

end Cert.KernelIdeal.DocValue

end
-- ==== Proof.DocUnitNorm.lean ====
/-
  The normalisation step of the second pass, read at an entry.

  For a 4096 × 128 array `P` of projections, each row is divided by its Euclidean norm kept above the floor: the squares
  are summed along the row, the 4096 sums are viewed as a column, the square root is taken, the floor is put under it,
  the column is spread back over the 128 columns, and `P` is divided by it.  At row `ρ`, column `h`, this is
  `unitize` of row `ρ` of `P`, at `h`.
-/
import proofs.«134453_j1288490189594_2_alg».proof.Proof.Spec
import proofs.«134453_j1288490189594_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.DocValue

open Idealize.ShloMosaic Idealize.ShloMosaic.ValueIdx Idealize.ShloMosaic.TcCoe Idealize.SL.Sem
open Cert.KernelIdeal LateInteraction

/-- The sum along a row: the reduction over the second axis, at row `ρ`, is the sum over the 128 columns. -/
theorem docRowSum_apply (V : FVec Ideal S4096x128 .f32) (hφ : FKind.Formats .f32)
    (hacc : (0x00000000#32 : BitVec 32) = 0x00000000#32) (ρ : Fin 4096) :
    multiReduction (F := Ideal) .add [1] S4096 V 0x00000000#32 Facts₀.reduces_S4096x128_S4096 hφ hacc (ix1 ρ)
      = ∑ h' : Fin 128, V (ix2 ρ h') := by
  refine (Ideal.multiReduction_add_single V 0x00000000#32 Facts₀.reduces_S4096x128_S4096 hφ hacc (ix1 ρ)).trans ?_
  refine Finset.sum_congr rfl fun k _ => congrArg V (funext fun a => Fin.ext ?_)
  match a with
  | ⟨0, _⟩ => rfl
  | ⟨1, _⟩ => rfl

/-- The 4096 row sums viewed as a column: entry `(ρ, z)` of the column is entry `ρ`. -/
theorem docColumn_apply (v : FVec Ideal S4096 .f32) (ρ : Fin 4096) (z : Fin 1) :
    shapeCast S4096x1 v Facts₀.shapeCasts_S4096_S4096x1 (ix2 ρ z) = v (ix1 ρ) := by
  refine shapeCast_apply v _ (ix2 ρ z) (ix1 ρ) ?_
  rw [Shape.rowMajor_val_one, Shape.rowMajor_val_two]
  show ρ.val = ρ.val * 1 + z.val
  have := z.isLt
  omega

/-- The column spread over 128 columns: entry `(ρ, h)` is the column's entry `(ρ, 0)`. -/
theorem docSpread_apply (u : FVec Ideal S4096x1 .f32) (ρ : Fin 4096) (h : Fin 128) :
    broadcastTo S4096x128 u Facts₀.broadcasts_S4096x1_S4096x128 (ix2 ρ h) = u (ix2 ρ (0 : Fin 1)) := by
  refine broadcastTo_apply u _ (ix2 ρ h) (ix2 ρ (0 : Fin 1)) fun a => ?_
  match a with
  | ⟨0, _⟩ => show ρ.val = if (4096 : Nat) = 1 then 0 else ρ.val; rw [if_neg (by decide)]
  | ⟨1, _⟩ => show 0 = if (1 : Nat) = 1 then 0 else h.val; rw [if_pos rfl]

/-- The whole normalisation at `(ρ, h)`: row `ρ` of `P` divided by its norm kept above the floor, at `h`. -/
theorem docNorm_apply (P : FVec Ideal S4096x128 .f32) (hφ : FKind.Formats .f32)
    (hacc : (0x00000000#32 : BitVec 32) = 0x00000000#32) (ρ : Fin 4096) (h : Fin 128) :
    divf P (broadcastTo S4096x128
        (maximumf
          (sqrt (shapeCast S4096x1
            (multiReduction (F := Ideal) .add [1] S4096 (mulf P P) 0x00000000#32 Facts₀.reduces_S4096x128_S4096 hφ hacc)
            Facts₀.shapeCasts_S4096_S4096x1))
          (broadcast S4096x1 (Scalar.ofBits (F := Ideal) .f32 0x2B8CBCCC#32)))
        Facts₀.broadcasts_S4096x1_S4096x128) (ix2 ρ h)
      = unitize (fun h' => P (ix2 ρ h')) h := by
  rw [divf_apply, docSpread_apply, maximumf_apply, broadcast_apply]
  show Ideal.div (P (ix2 ρ h))
      (max (Ideal.sqrt (shapeCast S4096x1
        (multiReduction (F := Ideal) .add [1] S4096 (mulf P P) 0x00000000#32 Facts₀.reduces_S4096x128_S4096 hφ hacc)
        Facts₀.shapeCasts_S4096_S4096x1 (ix2 ρ (0 : Fin 1)))) normFloor) = _
  rw [docColumn_apply, docRowSum_apply]
  rfl

end Cert.KernelIdeal.DocValue

end
-- ==== Proof.DocUnit.lean ====
/-
  The second pass's unit vectors, read at an entry.

  The payload flattens the block of eight documents to 4096 rows, projects every row on the 128 rows of `W`, and
  divides each row of projections by its Euclidean norm kept above the floor.  Row `512 pl + j` is token `j` of
  document `pl`, so the entry at that row and column `h` is `unitize` of that token's projection, at `h`: the
  normalisation read at an entry, applied to the projection read at an entry.
-/
import proofs.«134453_j1288490189594_2_alg».proof.Proof.Spec
import proofs.«134453_j1288490189594_2_alg».proof.Proof.Gen.KernelIdeal.Skeleton
import proofs.«134453_j1288490189594_2_alg».proof.Proof.DocUnitProj
import proofs.«134453_j1288490189594_2_alg».proof.Proof.DocUnitNorm

noncomputable section

open scoped BigOperators

namespace Cert.KernelIdeal.DocValue

open Idealize.ShloMosaic Idealize.ShloMosaic.ValueIdx Idealize.ShloMosaic.TcCoe Idealize.SL.Sem
open Cert.KernelIdeal LateInteraction

/-- The second pass's unit vectors at an entry: row `512 pl + j` of the flattened block is token `j` of document `pl`,
    projected on `W` and divided by its norm; column `h`. -/
theorem docUnit_apply (w : Vec Ideal S128x768 .f32) (x : Vec Ideal S8x512x768 .f32) (pl : Fin 8) (j : Fin 512) (h : Fin 128) :
    Gen.k1_pay3 (F := Ideal) w x (ix2 (docRow pl j) h) = unitize (project (fun k => x (ix3 pl j k)) w) h := by
  unfold Gen.k1_pay3
  -- the last format change is the identity; what is left is the normalisation of the projections
  refine (docNorm_apply
    (matmul dot_S4096x768_S128x768_S4096x128_1_1_0_0_n_n none
      (truncf .bf16 (shapeCast S4096x768 x Facts₀.shapeCasts_S8x512x768_S4096x768) Facts₀.bitsLt_bf16_f32)
      (truncf .bf16 w Facts₀.bitsLt_bf16_f32)
      (constant (F := Ideal) S4096x128 .f32 0x00000000#32))
    (.inl rfl) rfl (docRow pl j) h).trans ?_
  -- and row `512 pl + j` of the projections is the token's projection
  exact congrArg (fun P => unitize P h) (funext fun h' => docProj_apply w x pl j h')

end Cert.KernelIdeal.DocValue

end
-- ==== Proof.DocChunksTail.lean ====
/-
  The common tail of the four query chunks of the second pass: inner products of every document row with the
  512 rows of one chunk, regrouped as (document, document token, query, query token), the maximum over the
  document's tokens and the sum over the query's tokens.
-/
import proofs.«134453_j1288490189594_2_alg».proof.Proof.Spec
import proofs.«134453_j1288490189594_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.DocValue

open Idealize.ShloMosaic Idealize.ShloMosaic.ValueIdx Idealize.ShloMosaic.TcCoe Idealize.SL.Sem
open Cert.KernelIdeal LateInteraction

/-- The dimension numbers of the product of the document rows with a chunk's rows: both contract their axis of 128. -/
abbrev chunkDot : DotDims S4096x128 S512x128 S4096x512 := dot_S4096x128_S512x128_S4096x512_1_1_0_0_n_n

theorem chunkDot_lhs0 (i : S4096x512.Idx) (q : chunkDot.contr.Idx) : (chunkDot.lhsIdx i q 0).val = (i 0).val := by
  unfold DotDims.lhsIdx
  rw [dif_neg (show ¬(0 : Fin S4096x128.rank) ∈ chunkDot.lhsBatch by decide),
    dif_pos (show (0 : Fin S4096x128.rank) ∈ chunkDot.lhsNonContracting by decide)]
  rfl
theorem chunkDot_lhs1 (i : S4096x512.Idx) (q : chunkDot.contr.Idx) :
    (chunkDot.lhsIdx i q 1).val = (q ⟨0, by decide⟩).val :=
  chunkDot.lhsIdx_val_of_single rfl i q
theorem chunkDot_rhs0 (i : S4096x512.Idx) (q : chunkDot.contr.Idx) : (chunkDot.rhsIdx i q 0).val = (i 1).val := by
  unfold DotDims.rhsIdx
  rw [dif_neg (show ¬(0 : Fin S512x128.rank) ∈ chunkDot.rhsBatch by decide),
    dif_pos (show (0 : Fin S512x128.rank) ∈ chunkDot.rhsNonContracting by decide)]
  rfl
theorem chunkDot_rhs1 (i : S4096x512.Idx) (q : chunkDot.contr.Idx) :
    (chunkDot.rhsIdx i q 1).val = (q ⟨0, by decide⟩).val :=
  chunkDot.rhsIdx_val_of_single rfl i q

/-- The product into the zero splat at (row, column): the inner product over 128 of the document row and the chunk row. -/
theorem chunkDot_apply (d : FVec Ideal S4096x128 .bf16) (v : FVec Ideal S512x128 .bf16) (r : Fin 4096) (c : Fin 512) :
    matmul chunkDot none d v (constant (F := Ideal) S4096x512 .f32 0x00000000#32) (ix2 r c)
      = ∑ h : Fin 128, d (ix2 r h) * v (ix2 c h) := by
  simp only [matmul]
  rw [Ideal.matmul_constant_zero_apply, ← Equiv.sum_comp (contrEquiv1 chunkDot 128 rfl rfl).symm]
  refine Finset.sum_congr rfl fun k _ => ?_
  have hk := contrEquiv1_symm_val chunkDot 128 rfl rfl k
  have el : chunkDot.lhsIdx (ix2 r c) ((contrEquiv1 chunkDot 128 rfl rfl).symm k) = ix2 r k :=
    funext fun a => Fin.ext (by
      match a with
      | ⟨0, _⟩ => exact chunkDot_lhs0 _ _
      | ⟨1, _⟩ => exact (chunkDot_lhs1 _ _).trans hk)
  have er : chunkDot.rhsIdx (ix2 r c) ((contrEquiv1 chunkDot 128 rfl rfl).symm k) = ix2 c k :=
    funext fun a => Fin.ext (by
      match a with
      | ⟨0, _⟩ => exact chunkDot_rhs0 _ _
      | ⟨1, _⟩ => exact (chunkDot_rhs1 _ _).trans hk)
  rw [el, er]

/-- The regrouping of the 4096 × 512 products as (document, document token, query, query token), row-major:
    entry (pl, j, ql, i) is row 512 pl + j, column 32 ql + i. -/
theorem regroup_apply (m : FVec Ideal S4096x512 .f32) (pl : Fin 8) (j : Fin 512) (ql : Fin 16) (i : Fin 32) :
    shapeCast S8x512x16x32 m Facts₀.shapeCasts_S4096x512_S8x512x16x32 (ix4 pl j ql i)
      = m (ix2 (docRow pl j) (⟨32 * ql.val + i.val, by omega⟩ : Fin 512)) := by
  refine shapeCast_apply m _ (ix4 pl j ql i) (ix2 (docRow pl j) (⟨32 * ql.val + i.val, by omega⟩ : Fin 512)) ?_
  rw [Shape.rowMajor_val_two, Shape.rowMajor_val_four]
  show (512 * pl.val + j.val) * 512 + (32 * ql.val + i.val) = ((pl.val * 512 + j.val) * 16 + ql.val) * 32 + i.val
  omega

/-- The maximum over a document's 512 tokens, from the word of `-∞`. -/
theorem maxOverTokens_apply (src : FVec Ideal S8x512x16x32 .f32) (hφ : FKind.Formats .f32)
    (hacc : (0xFF800000#32 : BitVec 32) = 0xFF800000#32) (pl : Fin 8) (ql : Fin 16) (i : Fin 32) :
    multiReduction (F := Ideal) .maximumf [1] S8x16x32 src 0xFF800000#32 Facts₀.reduces_S8x512x16x32_S8x16x32 hφ hacc (ix3 pl ql i)
      = (Finset.univ : Finset (Fin 512)).fold max maxStart (fun j => src (ix4 pl j ql i)) := by
  refine (Ideal.multiReduction_maximumf_single src 0xFF800000#32 Facts₀.reduces_S8x512x16x32_S8x16x32 hφ hacc (ix3 pl ql i)).trans ?_
  show (Finset.univ : Finset (Fin 512)).fold max maxStart
      (fun j : Fin 512 => src (Facts₀.reduces_S8x512x16x32_S8x16x32.lift (ix3 pl ql i) j)) = _
  refine congrArg (fun f : Fin 512 → EReal => (Finset.univ : Finset (Fin 512)).fold max maxStart f) (funext fun j => ?_)
  refine congrArg src (funext fun a => Fin.ext ?_)
  match a with
  | ⟨0, _⟩ => rfl
  | ⟨1, _⟩ => rfl
  | ⟨2, _⟩ => rfl
  | ⟨3, _⟩ => rfl

/-- The sum over a query's 32 tokens, from the zero word. -/
theorem sumOverTokens_apply (src : FVec Ideal S8x16x32 .f32) (hφ : FKind.Formats .f32)
    (hacc : (0x00000000#32 : BitVec 32) = 0x00000000#32) (pl : Fin 8) (ql : Fin 16) :
    multiReduction (F := Ideal) .add [2] S8x16 src 0x00000000#32 Facts₀.reduces_S8x16x32_S8x16 hφ hacc (ix2 pl ql)
      = ∑ i : Fin 32, src (ix3 pl ql i) := by
  refine (Ideal.multiReduction_add_single src 0x00000000#32 Facts₀.reduces_S8x16x32_S8x16 hφ hacc (ix2 pl ql)).trans ?_
  show ∑ i : Fin 32, src (Facts₀.reduces_S8x16x32_S8x16.lift (ix2 pl ql) i) = _
  refine Finset.sum_congr rfl fun i _ => congrArg src (funext fun a => Fin.ext ?_)
  match a with
  | ⟨0, _⟩ => rfl
  | ⟨1, _⟩ => rfl
  | ⟨2, _⟩ => rfl

/-- The tail every chunk shares, as a function of the chunk's 512 query rows `v` and the document rows `d`. -/
def chunkTail (v : FVec Ideal S512x128 .bf16) (d : FVec Ideal S4096x128 .bf16) : FVec Ideal S8x16 .f32 :=
  multiReduction (F := Ideal) .add [2] S8x16
    (multiReduction (F := Ideal) .maximumf [1] S8x16x32
      (shapeCast S8x512x16x32
        (matmul chunkDot none d v (constant (F := Ideal) S4096x512 .f32 0x00000000#32))
        Facts₀.shapeCasts_S4096x512_S8x512x16x32)
      0xFF800000#32 Facts₀.reduces_S8x512x16x32_S8x16x32 (.inl rfl) rfl)
    0x00000000#32 Facts₀.reduces_S8x16x32_S8x16 (.inl rfl) rfl

/-- The tail at (document `pl`, query `ql` of the chunk): over the query's 32 tokens the sum of the best inner
    product among the document's 512 tokens. -/
theorem chunkTail_apply (v : FVec Ideal S512x128 .bf16) (d : FVec Ideal S4096x128 .bf16) (pl : Fin 8) (ql : Fin 16) :
    chunkTail v d (ix2 pl ql)
      = ∑ i : Fin 32, (Finset.univ : Finset (Fin 512)).fold max maxStart
          (fun j => ∑ h : Fin 128, d (ix2 (docRow pl j) h) * v (ix2 (⟨32 * ql.val + i.val, by omega⟩ : Fin 512) h)) := by
  unfold chunkTail
  refine (sumOverTokens_apply _ _ _ pl ql).trans ?_
  refine Finset.sum_congr rfl fun i _ => ?_
  refine (maxOverTokens_apply _ _ _ pl ql i).trans ?_
  refine congrArg (fun f : Fin 512 → EReal => (Finset.univ : Finset (Fin 512)).fold max maxStart f) (funext fun j => ?_)
  refine (regroup_apply _ pl j ql i).trans ?_
  exact chunkDot_apply d v (docRow pl j) _

end Cert.KernelIdeal.DocValue

end
-- ==== Proof.DocChunksSlice.lean ====
/-
  The four chunks of the flattened query rows: chunk `c` is rows 512 c … 512 c + 511, so its row `ρ` is
  query row 512 c + ρ.
-/
import proofs.«134453_j1288490189594_2_alg».proof.Proof.Spec
import proofs.«134453_j1288490189594_2_alg».proof.Proof.Gen.KernelIdeal.Skeleton
import Idealize.ShloMosaic.Lib.Pipeline.Value
import Idealize.ShloMosaic.Lib.ValueIdx

noncomputable section

open scoped BigOperators

namespace Cert.KernelIdeal.DocValue

open Idealize.ShloMosaic Idealize.ShloMosaic.ValueIdx Idealize.ShloMosaic.TcCoe Idealize.SL.Sem
open Cert.KernelIdeal LateInteraction

/-- The query rows as the second pass reads them: a cast to their own shape, so the rows themselves. -/
theorem queryCast_eq (qn : FVec Ideal S2048x128 .bf16) : Gen.k1_pay2 (F := Ideal) qn = qn := by
  unfold Gen.k1_pay2
  exact shapeCast_self qn _

/-- A slice of 512 whole rows from row `off` on, read at (ρ, h): row `off + ρ`, column `h`. -/
theorem rowSlice_apply (off : Nat) (hoff : off + 512 ≤ 2048) (x : FVec Ideal S2048x128 .bf16)
    (hs : S2048x128.Slices ![off, 0] S512x128) (ρ : Fin 512) (h : Fin 128) :
    extractStridedSlice S512x128 ![off, 0] x hs (ix2 ρ h) = x (ix2 (⟨off + ρ.val, by omega⟩ : Fin 2048) h) := by
  refine extractStridedSlice_apply ![off, 0] x hs (ix2 ρ h) (ix2 (⟨off + ρ.val, by omega⟩ : Fin 2048) h) (fun a => ?_)
  match a with
  | ⟨0, _⟩ => rfl
  | ⟨1, _⟩ => show h.val = 0 + h.val; omega

/-- Row `32 ql + i` of chunk `c` is token `i` of query `16 c + ql`. -/
theorem chunkRow_apply (c : Nat) (hc : c < 4) (qn : FVec Ideal S2048x128 .bf16)
    (hs : S2048x128.Slices ![512 * c, 0] S512x128) (ql : Fin 16) (i : Fin 32) (h : Fin 128) :
    extractStridedSlice S512x128 ![512 * c, 0] (Gen.k1_pay2 (F := Ideal) qn) hs
        (ix2 (⟨32 * ql.val + i.val, by omega⟩ : Fin 512) h)
      = qn (ix2 (queryRow (⟨16 * c + ql.val, by omega⟩ : Fin 64) i) h) := by
  rw [queryCast_eq]
  refine (rowSlice_apply (512 * c) (by omega) qn hs _ h).trans ?_
  exact congrArg (fun r : Fin 2048 => qn (ix2 r h)) (Fin.ext (by
    show 512 * c + (32 * ql.val + i.val) = 32 * (16 * c + ql.val) + i.val
    omega))

end Cert.KernelIdeal.DocValue

end
-- ==== Proof.DocChunks.lean ====
import proofs.«134453_j1288490189594_2_alg».proof.Proof.Spec
import proofs.«134453_j1288490189594_2_alg».proof.Proof.Gen.KernelIdeal.Skeleton
import proofs.«134453_j1288490189594_2_alg».proof.Proof.DocChunksTail
import proofs.«134453_j1288490189594_2_alg».proof.Proof.DocChunksSlice

noncomputable section

open scoped BigOperators

namespace Cert.KernelIdeal.DocValue

open Idealize.ShloMosaic Idealize.ShloMosaic.ValueIdx Idealize.ShloMosaic.TcCoe Idealize.SL.Sem
open Cert.KernelIdeal LateInteraction

/-! ## Each chunk is the common tail of its slice of the query rows -/

theorem chunk0_eq (qn : Vec Ideal S2048x128 .bf16) (w : Vec Ideal S128x768 .f32) (x : Vec Ideal S8x512x768 .f32) :
    Gen.k1_pay4 (F := Ideal) qn w x
      = chunkTail (extractStridedSlice S512x128 ![0, 0] (Gen.k1_pay2 (F := Ideal) qn) Facts₀.slices_S2048x128_o0_0_S512x128)
          (Gen.k1_pay3 (F := Ideal) w x) := rfl
theorem chunk1_eq (qn : Vec Ideal S2048x128 .bf16) (w : Vec Ideal S128x768 .f32) (x : Vec Ideal S8x512x768 .f32) :
    Gen.k1_pay5 (F := Ideal) qn w x
      = chunkTail (extractStridedSlice S512x128 ![512, 0] (Gen.k1_pay2 (F := Ideal) qn) Facts₀.slices_S2048x128_o512_0_S512x128)
          (Gen.k1_pay3 (F := Ideal) w x) := rfl
theorem chunk2_eq (qn : Vec Ideal S2048x128 .bf16) (w : Vec Ideal S128x768 .f32) (x : Vec Ideal S8x512x768 .f32) :
    Gen.k1_pay6 (F := Ideal) qn w x
      = chunkTail (extractStridedSlice S512x128 ![1024, 0] (Gen.k1_pay2 (F := Ideal) qn) Facts₀.slices_S2048x128_o1024_0_S512x128)
          (Gen.k1_pay3 (F := Ideal) w x) := rfl
theorem chunk3_eq (qn : Vec Ideal S2048x128 .bf16) (w : Vec Ideal S128x768 .f32) (x : Vec Ideal S8x512x768 .f32) :
    Gen.k1_pay7 (F := Ideal) qn w x
      = chunkTail (extractStridedSlice S512x128 ![1536, 0] (Gen.k1_pay2 (F := Ideal) qn) Facts₀.slices_S2048x128_o1536_0_S512x128)
          (Gen.k1_pay3 (F := Ideal) w x) := rfl

/-- The tail over chunk `c` (the slice from row `off = 512 c`) at (document `pl`, query `ql` of the chunk) is the
    late-interaction sum of the document against query `q = 16 c + ql`. -/
theorem chunk_apply (off c : Nat) (hoff : off = 512 * c) (qn : FVec Ideal S2048x128 .bf16)
    (hs : S2048x128.Slices ![off, 0] S512x128) (d : FVec Ideal S4096x128 .bf16) (pl : Fin 8) (ql : Fin 16)
    (q : Fin 64) (hq : q.val = 16 * c + ql.val) :
    chunkTail (extractStridedSlice S512x128 ![off, 0] (Gen.k1_pay2 (F := Ideal) qn) hs) d (ix2 pl ql)
      = maxSim (fun i h => qn (ix2 (queryRow q i) h)) (fun j h => d (ix2 (docRow pl j) h)) := by
  subst hoff
  have hc : c < 4 := by have := q.isLt; omega
  have hb : 16 * c + ql.val < 64 := by have := ql.isLt; omega
  obtain rfl : q = (⟨16 * c + ql.val, hb⟩ : Fin 64) := Fin.ext hq
  refine (chunkTail_apply _ d pl ql).trans ?_
  unfold maxSim
  refine Finset.sum_congr rfl fun i _ => ?_
  refine congrArg (fun f : Fin 512 → EReal => (Finset.univ : Finset (Fin 512)).fold max maxStart f) (funext fun j => ?_)
  refine Finset.sum_congr rfl fun h _ => ?_
  exact congrArg (fun y : EReal => d (ix2 (docRow pl j) h) * y) (chunkRow_apply c hc qn hs ql i h)

/-! ## The four chunks side by side: column `q` is column `q mod 16` of chunk `q / 16` -/

theorem concat_piece0 (v0 v1 v2 v3 : FVec Ideal S8x16 .f32) (pl : Fin 8) (q : Fin 64) (ql : Fin 16)
    (hq : q.val = ql.val) : Gen.k1_pay1 (F := Ideal) v0 v1 v2 v3 (ix2 pl q) = v0 (ix2 pl ql) := by
  unfold Gen.k1_pay1
  refine concatenate_apply_piece (1 : Fin S8x64.rank) _ _ (ix2 pl q) 0 (by show 0 < 4; omega) S8x16 v0 rfl rfl 0 rfl (ix2 pl ql)
    (fun b hb => ?_) ?_
  · match b with
    | ⟨0, _⟩ => rfl
    | ⟨1, _⟩ => exact absurd rfl hb
  · show 0 + ql.val = q.val
    omega

theorem concat_piece1 (v0 v1 v2 v3 : FVec Ideal S8x16 .f32) (pl : Fin 8) (q : Fin 64) (ql : Fin 16)
    (hq : q.val = 16 + ql.val) : Gen.k1_pay1 (F := Ideal) v0 v1 v2 v3 (ix2 pl q) = v1 (ix2 pl ql) := by
  unfold Gen.k1_pay1
  refine concatenate_apply_piece (1 : Fin S8x64.rank) _ _ (ix2 pl q) 1 (by show 1 < 4; omega) S8x16 v1 rfl rfl 16 rfl (ix2 pl ql)
    (fun b hb => ?_) ?_
  · match b with
    | ⟨0, _⟩ => rfl
    | ⟨1, _⟩ => exact absurd rfl hb
  · show 16 + ql.val = q.val
    omega

theorem concat_piece2 (v0 v1 v2 v3 : FVec Ideal S8x16 .f32) (pl : Fin 8) (q : Fin 64) (ql : Fin 16)
    (hq : q.val = 32 + ql.val) : Gen.k1_pay1 (F := Ideal) v0 v1 v2 v3 (ix2 pl q) = v2 (ix2 pl ql) := by
  unfold Gen.k1_pay1
  refine concatenate_apply_piece (1 : Fin S8x64.rank) _ _ (ix2 pl q) 2 (by show 2 < 4; omega) S8x16 v2 rfl rfl 32 rfl (ix2 pl ql)
    (fun b hb => ?_) ?_
  · match b with
    | ⟨0, _⟩ => rfl
    | ⟨1, _⟩ => exact absurd rfl hb
  · show 32 + ql.val = q.val
    omega

theorem concat_piece3 (v0 v1 v2 v3 : FVec Ideal S8x16 .f32) (pl : Fin 8) (q : Fin 64) (ql : Fin 16)
    (hq : q.val = 48 + ql.val) : Gen.k1_pay1 (F := Ideal) v0 v1 v2 v3 (ix2 pl q) = v3 (ix2 pl ql) := by
  unfold Gen.k1_pay1
  refine concatenate_apply_piece (1 : Fin S8x64.rank) _ _ (ix2 pl q) 3 (by show 3 < 4; omega) S8x16 v3 rfl rfl 48 rfl (ix2 pl ql)
    (fun b hb => ?_) ?_
  · match b with
    | ⟨0, _⟩ => rfl
    | ⟨1, _⟩ => exact absurd rfl hb
  · show 48 + ql.val = q.val
    omega

/-- The second pass's body at an entry `(pl, q)`, over its own unit vectors `k1_pay3 w x` (whatever they are): the four
    chunks of sixteen queries each, side by side, are the late-interaction sums of document `pl` against query `q`. -/
theorem docChunks_apply (qn : Vec Ideal S2048x128 .bf16) (w : Vec Ideal S128x768 .f32) (x : Vec Ideal S8x512x768 .f32)
    (pl : Fin 8) (q : Fin 64) :
    Gen.k1_pay1 (F := Ideal) (Gen.k1_pay4 qn w x) (Gen.k1_pay5 qn w x) (Gen.k1_pay6 qn w x) (Gen.k1_pay7 qn w x) (ix2 pl q)
      = maxSim (fun i h => qn (ix2 (queryRow q i) h)) (fun j h => Gen.k1_pay3 (F := Ideal) w x (ix2 (docRow pl j) h)) := by
  rw [chunk0_eq, chunk1_eq, chunk2_eq, chunk3_eq]
  generalize Gen.k1_pay3 (F := Ideal) w x = d
  have hq := q.isLt
  by_cases h1 : q.val < 16
  · exact (concat_piece0 _ _ _ _ pl q ⟨q.val, h1⟩ rfl).trans
      (chunk_apply 0 0 rfl qn _ d pl ⟨q.val, h1⟩ q (by show q.val = 16 * 0 + q.val; omega))
  by_cases h2 : q.val < 32
  · exact (concat_piece1 _ _ _ _ pl q ⟨q.val - 16, by omega⟩ (by show q.val = 16 + (q.val - 16); omega)).trans
      (chunk_apply 512 1 rfl qn _ d pl ⟨q.val - 16, by omega⟩ q (by show q.val = 16 * 1 + (q.val - 16); omega))
  by_cases h3 : q.val < 48
  · exact (concat_piece2 _ _ _ _ pl q ⟨q.val - 32, by omega⟩ (by show q.val = 32 + (q.val - 32); omega)).trans
      (chunk_apply 1024 2 rfl qn _ d pl ⟨q.val - 32, by omega⟩ q (by show q.val = 16 * 2 + (q.val - 32); omega))
  · exact (concat_piece3 _ _ _ _ pl q ⟨q.val - 48, by omega⟩ (by show q.val = 48 + (q.val - 48); omega)).trans
      (chunk_apply 1536 3 rfl qn _ d pl ⟨q.val - 48, by omega⟩ q (by show q.val = 16 * 3 + (q.val - 48); omega))

end Cert.KernelIdeal.DocValue

end
-- ==== Proof.DocPayload.lean ====
import proofs.«134453_j1288490189594_2_alg».proof.Proof.Spec
import proofs.«134453_j1288490189594_2_alg».proof.Proof.Gen.KernelIdeal.Skeleton
import proofs.«134453_j1288490189594_2_alg».proof.Proof.DocUnit
import proofs.«134453_j1288490189594_2_alg».proof.Proof.DocChunks

noncomputable section

open scoped BigOperators

namespace Cert.KernelIdeal.DocValue

open Idealize.ShloMosaic Idealize.ShloMosaic.ValueIdx Idealize.ShloMosaic.TcCoe Idealize.SL.Sem
open Cert.KernelIdeal LateInteraction

/-- The second pass's body at an entry `(pl, q)` of its 8 × 64 block: document `pl` of the block against query `q`,
    the query's unit vectors read from rows `32 q + i` of the flattened query array `qn`. -/
theorem docPayload_apply (qn : Vec Ideal S2048x128 .bf16) (w : Vec Ideal S128x768 .f32) (x : Vec Ideal S8x512x768 .f32)
    (pl : Fin 8) (q : Fin 64) :
    Gen.k1_pay1 (F := Ideal) (Gen.k1_pay4 qn w x) (Gen.k1_pay5 qn w x) (Gen.k1_pay6 qn w x) (Gen.k1_pay7 qn w x) (ix2 pl q)
      = maxSim (fun i h => qn (ix2 (queryRow q i) h)) (fun j => unitize (project (fun k => x (ix3 pl j k)) w)) := by
  rw [docChunks_apply]
  exact congrArg (maxSim _) (funext fun j => funext fun h => docUnit_apply w x pl j h)

end Cert.KernelIdeal.DocValue

end
-- ==== Proof.DocArray.lean ====
/-
  The second launch's output array.

  The launch walks the 64 documents eight at a time; the flattened query unit vectors and `W` are resident.  At block
  `b` the body scores documents `8 b + pl` against all 64 queries, so what it writes back is block `b` of ONE array,
  the document-major scores (`docScores`); the eight blocks cover the 64 × 64 output, which therefore ends holding that
  array.  Everything is stated at the contents `V` the launch is entered with.
-/
import proofs.«134453_j1288490189594_2_alg».proof.Proof.Spec
import proofs.«134453_j1288490189594_2_alg».proof.Proof.Gen.KernelIdeal.Frame
import Idealize.ShloMosaic.Lib.Pipeline.Value
import proofs.«134453_j1288490189594_2_alg».proof.Proof.DocPayload

set_option maxRecDepth 16384

noncomputable section

open scoped BigOperators

namespace Cert.KernelIdeal.DocValue

open Cert.KernelIdeal Cert.KernelIdeal.Gen Idealize.ShloMosaic Idealize.ShloMosaic.ValueIdx Idealize.ShloMosaic.TcCoe Idealize.SL.Sem
open Idealize.ShloMosaic.Pipeline (Dat)
open LateInteraction

/-- What the body computes from the query unit vectors `x0`, a block `x1` of eight documents and a copy `x2` of `W`,
    at a block entry `y`, is the document-major score array at the array entry `i` under it: `x1` is documents
    `8 b + ·` of the array `A1` (through the block's embedding `e1`), `i` is `y` moved `b` blocks down. -/
theorem docBlock_eq (QN : S2048x128.Idx → EReal) (A1 : S64x512x768.Idx → EReal) (W : S128x768.Idx → EReal)
    (x0 : Vec Ideal S2048x128 .bf16) (x1 : Vec Ideal S8x512x768 .f32) (x2 : Vec Ideal S128x768 .f32)
    (e1 : S8x512x768.Idx → S64x512x768.Idx) (b : Nat)
    (hx0 : x0 = QN) (hx1 : ∀ y, x1 y = A1 (e1 y))
    (he1 : ∀ y, (e1 y 0).val = b * 8 + 1 * (y 0).val ∧ (e1 y 1).val = 0 * 512 + 1 * (y 1).val ∧ (e1 y 2).val = 0 * 768 + 1 * (y 2).val)
    (hx2 : x2 = W)
    (y : S8x64.Idx) (i : S64x64.Idx) (hi0 : (i 0).val = b * 8 + 1 * (y 0).val) (hi1 : (i 1).val = 0 * 64 + 1 * (y 1).val) :
    Gen.k1_pay1 (F := Ideal) (Gen.k1_pay4 x0 x2 x1) (Gen.k1_pay5 x0 x2 x1) (Gen.k1_pay6 x0 x2 x1) (Gen.k1_pay7 x0 x2 x1) y
      = docScores QN A1 W i := by
  obtain ⟨pl, q, rfl⟩ : ∃ (pl : Fin 8) (q : Fin 64), y = ix2 pl q := ⟨y 0, y 1, eq_ix2 y⟩
  obtain ⟨i0, i1, rfl⟩ : ∃ (i0 : Fin 64) (i1 : Fin 64), i = ix2 i0 i1 := ⟨i 0, i 1, eq_ix2 i⟩
  have hi0' : i0.val = b * 8 + 1 * pl.val := hi0
  have hi1' : i1 = q := Fin.ext (by have : i1.val = 0 * 64 + 1 * q.val := hi1; omega)
  subst hi1' hx0 hx2
  rw [docPayload_apply]
  show maxSim (fun i h => x0 (ix2 (queryRow i1 i) h)) (fun j => unitize (project (fun k => x1 (ix3 pl j k)) x2))
    = maxSim (fun i h => x0 (ix2 (queryRow i1 i) h)) (fun j => unitize (project (fun k => A1 (ix3 i0 j k)) x2))
  refine congrArg (maxSim _) (funext fun j => ?_)
  refine congrArg (fun x => unitize (project x x2)) (funext fun k => ?_)
  rw [hx1]
  refine congrArg A1 (funext fun a => Fin.ext ?_)
  obtain ⟨h0, h1, h2⟩ := he1 (ix3 pl j k)
  match a with
  | ⟨0, _⟩ => exact h0.trans hi0'.symm
  | ⟨1, _⟩ => exact h1.trans (by show 0 * 512 + 1 * j.val = j.val; omega)
  | ⟨2, _⟩ => exact h2.trans (by show 0 * 768 + 1 * k.val = k.val; omega)

variable (V : (c : Dev nD) → (b : Ref sig .tc) → Buf (Elt Ideal) ((c : Thread nD τ).loc b))

theorem offsets_zero2 : (![0, 0] : Fin 2 → Nat) = fun _ => 0 := funext fun a => by fin_cases a <;> rfl
theorem offsets_zero3 : (![0, 0, 0] : Fin 3 → Nat) = fun _ => 0 := funext fun a => by fin_cases a <;> rfl

/-- The printed index maps, decided over the eight grid points: the documents' window moves with the output window
    along the documents, the query unit vectors and `W` stay, and the output's block index is at most 7. -/
theorem index_facts : ∀ t : Fin cfg1.N, win1_0.index t (0 : Fin 2) = 0
    ∧ win1_0.index t (1 : Fin 2) = 0
    ∧ win1_1.index t (0 : Fin 3) = win1_3.index t (0 : Fin 2)
    ∧ win1_1.index t (1 : Fin 3) = 0
    ∧ win1_1.index t (2 : Fin 3) = 0
    ∧ win1_2.index t (0 : Fin 2) = 0
    ∧ win1_2.index t (1 : Fin 2) = 0
    ∧ win1_3.index t (1 : Fin 2) = 0
    ∧ win1_3.index t (0 : Fin 2) ≤ 7 :=
  (by decide +kernel : ∀ t : Fin grid1.N, _)

/-- Each of the eight document blocks is some point's. -/
theorem index_onto : ∀ q0 : Fin 8, ∃ t : Fin cfg1.N, win1_3.index t = ![q0.val, 0] :=
  (by decide +kernel : ∀ q0 : Fin 8, ∃ t : Fin grid1.N, win1_3.index t = ![q0.val, 0])

/-- What point `t` writes back is block `t` of the document-major scores. -/
theorem flushed_eq (c : Dev nD) (t : Fin cfg1.N) :
    (dat1 V c).flushed 3 t
      = ((cfg1.win 3).blk t).view.read (Elt Ideal) (docScores (V c main_v1) (V c main_arg1) (V c main_arg2)) := by
  show (cfg1.win 3).cut (grid1.coords t) ((dat1 V c).after 3 t) = _
  rw [after1_3]
  unfold out1_3
  rw [View.canon_unit_zero offsets_zero2]
  simp only [View.ld_unit_zero (S := S2048x128) offsets_zero2, View.ld_unit_zero (S := S128x768) offsets_zero2,
    View.ld_unit_zero (S := S8x512x768) offsets_zero3]
  obtain ⟨e0, e1, e2, e3, e4, e5, e6, e7, e8⟩ := index_facts t
  funext j
  refine docBlock_eq (V c main_v1) (V c main_arg1) (V c main_arg2) (iblk1 V c 0 t) (iblk1 V c 1 t) (iblk1 V c 2 t)
    (fun y => ((cfg1.win 1).blk t).view.emb y) (win1_3.index t (0 : Fin 2)) ?_ (fun y => rfl) (fun y => ⟨?_, ?_, ?_⟩) ?_ j
    (((cfg1.win 3).blk t).view.emb j) ?_ ?_
  · funext y
    show V c main_v1 (((cfg1.win 0).blk t).view.emb y) = V c main_v1 y
    refine congrArg (V c main_v1) (funext fun a => Fin.ext ?_)
    match a with
    | ⟨0, _⟩ => show win1_0.index t (0 : Fin 2) * 2048 + 1 * (y 0).val = (y 0).val; rw [e0]; omega
    | ⟨1, _⟩ => show win1_0.index t (1 : Fin 2) * 128 + 1 * (y 1).val = (y 1).val; rw [e1]; omega
  · show win1_1.index t (0 : Fin 3) * 8 + 1 * (y 0).val = _; rw [e2]
  · show win1_1.index t (1 : Fin 3) * 512 + 1 * (y 1).val = _; rw [e3]
  · show win1_1.index t (2 : Fin 3) * 768 + 1 * (y 2).val = _; rw [e4]
  · funext y
    show V c main_arg2 (((cfg1.win 2).blk t).view.emb y) = V c main_arg2 y
    refine congrArg (V c main_arg2) (funext fun a => Fin.ext ?_)
    match a with
    | ⟨0, _⟩ => show win1_2.index t (0 : Fin 2) * 128 + 1 * (y 0).val = (y 0).val; rw [e5]; omega
    | ⟨1, _⟩ => show win1_2.index t (1 : Fin 2) * 768 + 1 * (y 1).val = (y 1).val; rw [e6]; omega
  · show win1_3.index t (0 : Fin 2) * 8 + 1 * (j 0).val = _; rfl
  · show win1_3.index t (1 : Fin 2) * 64 + 1 * (j 1).val = _; rw [e7]

/-- An entry of the output array is in point `t`'s block iff each coordinate is in the block's range on its axis. -/
theorem mem_blk (t : Fin cfg1.N) (i : S64x64.Idx) :
    i ∈ ((cfg1.win 3).blk t).view.set ↔ ∀ a : Fin 2, win1_3.index t a * S8x64.size a ≤ (i a).val ∧ (i a).val < win1_3.index t a * S8x64.size a + S8x64.size a := by
  show i ∈ ((View.whole main_v2).slice (win1_3.rect t)).set ↔ _
  rw [View.set_slice_whole, Rect.mem_set_unit]
  exact Iff.rfl

/-- Every entry of the 64 × 64 output is in the block of the point whose block index is its row over 8. -/
theorem cover (i : S64x64.Idx) :
    ∃ t : Fin cfg1.N, (cfg1.win 3).flush t = true ∧ i ∈ ((cfg1.win 3).blk t).view.set := by
  have hi0 : (i 0).val < 64 := (i 0).isLt
  have hi1 : (i 1).val < 64 := (i 1).isLt
  obtain ⟨t, ht⟩ := index_onto ⟨(i 0).val / 8, by omega⟩
  have q0 : win1_3.index t (0 : Fin 2) = (i 0).val / 8 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 8 ≤ (i 0).val ∧ (i 0).val < win1_3.index t (0 : Fin 2) * 8 + 8; omega
  | ⟨1, _⟩ => show win1_3.index t (1 : Fin 2) * 64 ≤ (i 1).val ∧ (i 1).val < win1_3.index t (1 : Fin 2) * 64 + 64; omega

/-- The output array after the launch: the document-major scores of the query unit vectors, documents and `W` it was
    entered with. -/
theorem docArray (c : Dev nD) :
    (dat1 V c).arrAt 3 cfg1.N = docScores (V c main_v1) (V c main_arg1) (V c main_arg2) :=
  (dat1 V c).arrAt_eq_of_cover 3 _ (fun t _ => flushed_eq V c t) cover

end Cert.KernelIdeal.DocValue

end
-- ==== Proof.KernelValue.lean ====
/-
  The idealized kernel's result is the score array.

  The last boundary's contents of the result array are read back segment by segment: the transpose of the second
  launch's output; that output is the document-major scores over the first launch's output, the documents and `W`; the
  first launch's output is the unit vectors of the rows of the flattened queries; the flattened queries are the query
  array read row-major; and the arguments are never written.  Composed (`docScores_queryRows`), entry `(q, p)` is the
  late-interaction score of query `q` against document `p`.
-/
import proofs.«134453_j1288490189594_2_alg».proof.Proof.Spec
import proofs.«134453_j1288490189594_2_alg».proof.Proof.KernelRun
import proofs.«134453_j1288490189594_2_alg».proof.Proof.QueryArray
import proofs.«134453_j1288490189594_2_alg».proof.Proof.DocArray
import Idealize.ShloMosaic.Lib.StableHlo.Run
import Idealize.ShloMosaic.Lib.Pipeline.Value

set_option maxRecDepth 16384

noncomputable section

namespace Cert.KernelIdeal.RunValue

open Idealize.ShloMosaic Idealize.ShloMosaic.ValueIdx Idealize.ShloMosaic.TcCoe Idealize.SL.Sem Idealize.ShloMosaic.StableHlo
open Idealize.ShloMosaic.Pipeline (Dat)
open Cert.KernelIdeal Cert.KernelIdeal.Gen LateInteraction

variable (m : (ℓ : Loc nD τ sig) → Buf (Elt Ideal) ℓ) (ρ : Dev nD → PrngReg)

/-! ## Before the first launch: the queries flattened, the arguments as launched -/

theorem entry0_queries (c : Dev nD) :
    V1 m ρ c main_v0 = shapeCast S2048x768 (m ((c : Thread nD τ).loc main_arg0)) shapeCasts_S64x32x768_S2048x768 := by
  show StableHlo.after hostOps0 (W0 m ρ c) (Proc.devRef .tc main_v0) = _
  after_results
  rfl

theorem entry0_W (c : Dev nD) : V1 m ρ c main_arg2 = m ((c : Thread nD τ).loc main_arg2) := by
  show StableHlo.after hostOps0 (W0 m ρ c) (Proc.devRef .tc main_arg2) = _
  after_results

theorem entry0_docs (c : Dev nD) : V1 m ρ c main_arg1 = m ((c : Thread nD τ).loc main_arg1) := by
  show StableHlo.after hostOps0 (W0 m ρ c) (Proc.devRef .tc main_arg1) = _
  after_results

/-! ## Between the launches -/

theorem entry1_queryRows (c : Dev nD) :
    V2 m ρ c main_v1 = queryRows (V1 m ρ c main_v0) (V1 m ρ c main_arg2) :=
  (W2_arr m ρ c 2).trans (QueryValue.queryArray (V1 m ρ) c)

theorem entry1_docs (c : Dev nD) : V2 m ρ c main_arg1 = m ((c : Thread nD τ).loc main_arg1) :=
  (W2_of_ne m ρ c main_arg1 (by decide)).trans (entry0_docs m ρ c)

theorem entry1_W (c : Dev nD) : V2 m ρ c main_arg2 = m ((c : Thread nD τ).loc main_arg2) :=
  ((W2_arr m ρ c 1).trans (((dat0 (V1 m ρ) c).arrAt_in 1 rfl _).trans (A_eq0 (V1 m ρ) c 1))).trans (entry0_W m ρ c)

/-! ## After the second launch, and the final transpose -/

theorem exit1_docScores (c : Dev nD) :
    V3 m ρ c main_v2 = docScores (V2 m ρ c main_v1) (V2 m ρ c main_arg1) (V2 m ρ c main_arg2) :=
  (W3_arr m ρ c 3).trans (DocValue.docArray (V2 m ρ) c)

theorem result_transpose (c : Dev nD) :
    W4 m ρ c (Proc.devRef .tc main_v3) = transpose S64x64 [1, 0] (V3 m ρ c main_v2) transposes_S64x64_S64x64_1_0 := by
  show StableHlo.after hostOps2 (W3 m ρ c) (Proc.devRef .tc main_v3) = _
  after_results

/-- The flattened query array at row `32 q + i` is token `i` of query `q`: the two have the same row-major position. -/
theorem flat_queries (a0 : S64x32x768.Idx → EReal) (q : Fin 64) (i : Fin 32) (k : Fin 768) :
    shapeCast S2048x768 a0 shapeCasts_S64x32x768_S2048x768 (ix2 (queryRow q i) k) = a0 (ix3 q i k) := by
  refine shapeCast_apply a0 _ _ _ ?_
  rw [Shape.rowMajor_val_three, Shape.rowMajor_val_two]
  show (q.val * 32 + i.val) * 768 + k.val = (32 * q.val + i.val) * 768 + k.val
  omega

/-- The result array at the last boundary is the score array of the three arguments as launched. -/
theorem result_eq (c : Dev nD) :
    W4 m ρ c (Proc.devRef .tc main_v3)
      = score (m ((c : Thread nD τ).loc main_arg0)) (m ((c : Thread nD τ).loc main_arg1)) (m ((c : Thread nD τ).loc main_arg2)) := by
  rw [result_transpose, exit1_docScores, entry1_queryRows, entry1_docs, entry1_W, entry0_queries, entry0_W]
  funext j
  obtain ⟨q, p, rfl⟩ : ∃ (q : Fin 64) (p : Fin 64), j = ix2 q p := ⟨j 0, j 1, eq_ix2 j⟩
  refine (transpose_apply _ _ _ (ix2 q p) (ix2 p q) (fun b => by match b with | ⟨0, _⟩ => rfl | ⟨1, _⟩ => rfl)).trans ?_
  exact docScores_queryRows _ _ _ _ (flat_queries _) q p

/-- Every weakly fair execution of the idealized kernel terminates, nothing faulting, with the score array in the result
    and the arguments as launched. -/
theorem run : θ_run defs (onTc (τ := τ) (main (F := Ideal))) ⟨m, fun _ => 0, ρ⟩ (fun r => ∀ c : Dev nD,
      r.2.mem ((c.tc : Thread nD τ).loc main_v3)
        = score (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_result m ρ)

end Cert.KernelIdeal.RunValue

end
-- ==== Proof.RefScoreQuery.lean ====
import proofs.«134453_j1288490189594_2_alg».proof.Proof.Spec
import proofs.«134453_j1288490189594_2_alg».proof.Proof.Gen.ReferenceIdeal.Read

noncomputable section

open scoped BigOperators

namespace Cert.ReferenceIdeal.RefValue

open Idealize.ShloMosaic Idealize.ShloMosaic.ValueIdx Idealize.ShloMosaic.TcCoe Idealize.SL.Sem
open Cert.ReferenceIdeal Cert.ReferenceIdeal.Gen LateInteraction

/-- The queries' projection: entry `(q, i, h)` of the first contraction is token `i` of query `q` projected on row `h` of `W`. -/
theorem query_project (x0 : (⟨S64x32x768, .f32⟩ : BufTy).Contents (Elt Ideal)) (x2 : (⟨S128x768, .f32⟩ : BufTy).Contents (Elt Ideal))
    (q : Fin 64) (i : Fin 32) (h : Fin 128) :
    Read.val_main_v0 (F := Ideal) x0 x2 (ix3 q i h) = project (fun k => x0 (ix3 q i k)) x2 h := by
  refine (Read.val_main_v0_apply x0 x2 (ix3 q i h)).trans ?_
  unfold project
  refine Finset.sum_congr rfl fun k _ => ?_
  have el : Read.lidx_main_v0 (ix3 q i h) k = ix3 q i k :=
    funext fun a => Fin.ext (by match a with | ⟨0, _⟩ => rfl | ⟨1, _⟩ => rfl | ⟨2, _⟩ => rfl)
  have er : Read.ridx_main_v0 (ix3 q i h) k = ix2 h k :=
    funext fun a => Fin.ext (by match a with | ⟨0, _⟩ => rfl | ⟨1, _⟩ => rfl)
  rw [el, er]

/-- The squared norm of a query token's projection: the sum over the 128 rows of the squares, from the zero word. -/
theorem query_sqnorm (x0 : (⟨S64x32x768, .f32⟩ : BufTy).Contents (Elt Ideal)) (x2 : (⟨S128x768, .f32⟩ : BufTy).Contents (Elt Ideal))
    (q : Fin 64) (i : Fin 32) :
    Read.val_main_v2 (F := Ideal) x0 x2 (ix2 q i)
      = ∑ h' : Fin 128, project (fun k => x0 (ix3 q i k)) x2 h' * project (fun k => x0 (ix3 q i k)) x2 h' := by
  refine (Read.val_main_v2_apply x0 x2 (ix2 q i)).trans ?_
  rw [Read.val_main_cst_apply]
  refine (congrArg (· + _) Ideal.ofBits_zero_f32).trans ?_
  rw [zero_add]
  refine Finset.sum_congr rfl fun k _ => ?_
  have e : Read.idx_main_v2 (ix2 q i) k = ix3 q i k :=
    funext fun a => Fin.ext (by match a with | ⟨0, _⟩ => rfl | ⟨1, _⟩ => rfl | ⟨2, _⟩ => rfl)
  rw [e, Read.val_main_v1_apply, query_project]
  rfl

/-- The queries' unit vectors: entry `(q, i, h)` of the divided array is coordinate `h` of the unit vector of token `i` of query `q`. -/
theorem ref_query (x0 : (⟨S64x32x768, .f32⟩ : BufTy).Contents (Elt Ideal)) (x2 : (⟨S128x768, .f32⟩ : BufTy).Contents (Elt Ideal))
    (q : Fin 64) (i : Fin 32) (h : Fin 128) :
    Read.val_main_v8 (F := Ideal) x0 x2 (ix3 q i h) = queryEmb x0 x2 q i h := by
  have e7 : Read.idx_main_v3 (Read.idx_main_v7 (ix3 q i h)) = ix2 q i :=
    funext fun a => Fin.ext (by match a with | ⟨0, _⟩ => rfl | ⟨1, _⟩ => rfl)
  rw [Read.val_main_v8_apply, Read.val_main_v7_apply, Read.val_main_v6_apply, Read.val_main_v4_apply,
    Read.val_main_v3_apply, Read.val_main_v5_apply, Read.val_main_cst_0_apply, e7, query_sqnorm, query_project]
  rfl

end Cert.ReferenceIdeal.RefValue

end
-- ==== Proof.RefScoreDoc.lean ====
import proofs.«134453_j1288490189594_2_alg».proof.Proof.Spec
import proofs.«134453_j1288490189594_2_alg».proof.Proof.Gen.ReferenceIdeal.Read

noncomputable section

open scoped BigOperators

namespace Cert.ReferenceIdeal.RefValue

open Idealize.ShloMosaic Idealize.ShloMosaic.ValueIdx Idealize.ShloMosaic.TcCoe Idealize.SL.Sem
open Cert.ReferenceIdeal Cert.ReferenceIdeal.Gen LateInteraction

/-- The documents' projection: entry `(p, j, h)` of the second contraction is token `j` of document `p` projected on row `h` of `W`. -/
theorem doc_project (x1 : (⟨S64x512x768, .f32⟩ : BufTy).Contents (Elt Ideal)) (x2 : (⟨S128x768, .f32⟩ : BufTy).Contents (Elt Ideal))
    (p : Fin 64) (j : Fin 512) (h : Fin 128) :
    Read.val_main_v9 (F := Ideal) x1 x2 (ix3 p j h) = project (fun k => x1 (ix3 p j k)) x2 h := by
  refine (Read.val_main_v9_apply x1 x2 (ix3 p j h)).trans ?_
  unfold project
  refine Finset.sum_congr rfl fun k _ => ?_
  have el : Read.lidx_main_v9 (ix3 p j h) k = ix3 p j k :=
    funext fun a => Fin.ext (by match a with | ⟨0, _⟩ => rfl | ⟨1, _⟩ => rfl | ⟨2, _⟩ => rfl)
  have er : Read.ridx_main_v9 (ix3 p j h) k = ix2 h k :=
    funext fun a => Fin.ext (by match a with | ⟨0, _⟩ => rfl | ⟨1, _⟩ => rfl)
  rw [el, er]

/-- The squared norm of a document token's projection: the sum over the 128 rows of the squares, from the zero word. -/
theorem doc_sqnorm (x1 : (⟨S64x512x768, .f32⟩ : BufTy).Contents (Elt Ideal)) (x2 : (⟨S128x768, .f32⟩ : BufTy).Contents (Elt Ideal))
    (p : Fin 64) (j : Fin 512) :
    Read.val_main_v11 (F := Ideal) x1 x2 (ix2 p j)
      = ∑ h' : Fin 128, project (fun k => x1 (ix3 p j k)) x2 h' * project (fun k => x1 (ix3 p j k)) x2 h' := by
  refine (Read.val_main_v11_apply x1 x2 (ix2 p j)).trans ?_
  rw [Read.val_main_cst_1_apply]
  refine (congrArg (· + _) Ideal.ofBits_zero_f32).trans ?_
  rw [zero_add]
  refine Finset.sum_congr rfl fun k _ => ?_
  have e : Read.idx_main_v11 (ix2 p j) k = ix3 p j k :=
    funext fun a => Fin.ext (by match a with | ⟨0, _⟩ => rfl | ⟨1, _⟩ => rfl | ⟨2, _⟩ => rfl)
  rw [e, Read.val_main_v10_apply, doc_project]
  rfl

/-- The documents' unit vectors: entry `(p, j, h)` of the divided array is coordinate `h` of the unit vector of token `j` of document `p`. -/
theorem ref_doc (x1 : (⟨S64x512x768, .f32⟩ : BufTy).Contents (Elt Ideal)) (x2 : (⟨S128x768, .f32⟩ : BufTy).Contents (Elt Ideal))
    (p : Fin 64) (j : Fin 512) (h : Fin 128) :
    Read.val_main_v17 (F := Ideal) x1 x2 (ix3 p j h) = docEmb x1 x2 p j h := by
  have e16 : Read.idx_main_v12 (Read.idx_main_v16 (ix3 p j h)) = ix2 p j :=
    funext fun a => Fin.ext (by match a with | ⟨0, _⟩ => rfl | ⟨1, _⟩ => rfl)
  rw [Read.val_main_v17_apply, Read.val_main_v16_apply, Read.val_main_v15_apply, Read.val_main_v13_apply,
    Read.val_main_v12_apply, Read.val_main_v14_apply, Read.val_main_cst_2_apply, e16, doc_sqnorm, doc_project]
  rfl

end Cert.ReferenceIdeal.RefValue

end
-- ==== Proof.RefScore.lean ====
import proofs.«134453_j1288490189594_2_alg».proof.Proof.Spec
import proofs.«134453_j1288490189594_2_alg».proof.Proof.Gen.ReferenceIdeal.Read
import proofs.«134453_j1288490189594_2_alg».proof.Proof.RefScoreQuery
import proofs.«134453_j1288490189594_2_alg».proof.Proof.RefScoreDoc

noncomputable section

open scoped BigOperators

namespace Cert.ReferenceIdeal.RefValue

open Idealize.ShloMosaic Idealize.ShloMosaic.ValueIdx Idealize.ShloMosaic.TcCoe Idealize.SL.Sem
open Cert.ReferenceIdeal Cert.ReferenceIdeal.Gen LateInteraction

/-- The score array's middle stage drops the last of four axes. -/
theorem reduces_last : S64x64x32x512.Reduces [3] S64x64x32 := by decide

/-- The reduced index `(q, p, i)` with `j` put back on the last axis is `(q, p, i, j)`. -/
theorem lift_last (q p : Fin 64) (i : Fin 32) (j : Fin 512) :
    reduces_last.lift (ix3 q p i) j = ix4 q p i j :=
  funext fun a => Fin.ext (by match a with | ⟨0, _⟩ => rfl | ⟨1, _⟩ => rfl | ⟨2, _⟩ => rfl | ⟨3, _⟩ => rfl)

/-- A maximum over the last axis of a 64 × 64 × 32 × 512 array, started from the word of `-∞`: at `(q, p, i)` it is the fold
    of `max` over the 512 entries `(q, p, i, j)`. -/
theorem hostMax_last (x : FVec Ideal S64x64x32x512 .f32) (q p : Fin 64) (i : Fin 32) :
    Host.reduce FloatOps.maximumf x (Read.val_main_cst_3 (F := Ideal)) reducesTo_S64x64x32x512_S64x64x32_d3 h_S_ (ix3 q p i)
      = (Finset.univ : Finset (Fin 512)).fold max maxStart (fun j => x (ix4 q p i j)) := by
  have e := Host.reduce_eq_fold_single (α := Ideal .f32) (FloatOps.maximumf (F := Ideal) (φ := .f32)) x (Read.val_main_cst_3 (F := Ideal))
    reducesTo_S64x64x32x512_S64x64x32_d3 reduces_last h_S_ (ix3 q p i)
  refine e.trans ?_
  show (Finset.univ : Finset (Fin 512)).fold max maxStart (fun j => x (reduces_last.lift (ix3 q p i) j)) = _
  refine congrArg (fun f => (Finset.univ : Finset (Fin 512)).fold max maxStart f) (funext fun j => ?_)
  exact congrArg x (lift_last q p i j)

/-- The inner products, transposed: entry `(q, p, i, j)` is the inner product over the 128 coordinates of the unit vector
    of token `j` of document `p` (the left factor) with the unit vector of token `i` of query `q`. -/
theorem ref_sim (x0 : (⟨S64x32x768, .f32⟩ : BufTy).Contents (Elt Ideal)) (x1 : (⟨S64x512x768, .f32⟩ : BufTy).Contents (Elt Ideal))
    (x2 : (⟨S128x768, .f32⟩ : BufTy).Contents (Elt Ideal)) (q p : Fin 64) (i : Fin 32) (j : Fin 512) :
    Read.val_main_v19 (F := Ideal) x0 x1 x2 (ix4 q p i j) = ∑ h : Fin 128, docEmb x1 x2 p j h * queryEmb x0 x2 q i h := by
  have e19 : Read.idx_main_v19 (ix4 q p i j) = ix4 p j q i :=
    funext fun a => Fin.ext (by match a with | ⟨0, _⟩ => rfl | ⟨1, _⟩ => rfl | ⟨2, _⟩ => rfl | ⟨3, _⟩ => rfl)
  rw [Read.val_main_v19_apply, e19]
  refine (Read.val_main_v18_apply x0 x1 x2 (ix4 p j q i)).trans ?_
  refine Finset.sum_congr rfl fun h _ => ?_
  have el : Read.lidx_main_v18 (ix4 p j q i) h = ix3 p j h :=
    funext fun a => Fin.ext (by match a with | ⟨0, _⟩ => rfl | ⟨1, _⟩ => rfl | ⟨2, _⟩ => rfl)
  have er : Read.ridx_main_v18 (ix4 p j q i) h = ix3 q i h :=
    funext fun a => Fin.ext (by match a with | ⟨0, _⟩ => rfl | ⟨1, _⟩ => rfl | ⟨2, _⟩ => rfl)
  rw [el, er, ref_doc, ref_query]

/-- The best inner product of a query token among a document's 512 tokens: entry `(q, p, i)` of the maximum over the last
    axis is the fold of `max`, from the word of `-∞`, of the inner products over the document's tokens. -/
theorem ref_best (x0 : (⟨S64x32x768, .f32⟩ : BufTy).Contents (Elt Ideal)) (x1 : (⟨S64x512x768, .f32⟩ : BufTy).Contents (Elt Ideal))
    (x2 : (⟨S128x768, .f32⟩ : BufTy).Contents (Elt Ideal)) (q p : Fin 64) (i : Fin 32) :
    Read.val_main_v20 (F := Ideal) x0 x1 x2 (ix3 q p i)
      = (Finset.univ : Finset (Fin 512)).fold max maxStart (fun j => ∑ h : Fin 128, docEmb x1 x2 p j h * queryEmb x0 x2 q i h) := by
  unfold Read.val_main_v20
  refine (hostMax_last (Read.val_main_v19 (F := Ideal) x0 x1 x2) q p i).trans ?_
  refine congrArg (fun f => (Finset.univ : Finset (Fin 512)).fold max maxStart f) (funext fun j => ?_)
  exact ref_sim x0 x1 x2 q p i j

/-- The reference's last stage is the score array. -/
theorem ref_score (x0 : (⟨S64x32x768, .f32⟩ : BufTy).Contents (Elt Ideal)) (x1 : (⟨S64x512x768, .f32⟩ : BufTy).Contents (Elt Ideal))
    (x2 : (⟨S128x768, .f32⟩ : BufTy).Contents (Elt Ideal)) :
    Read.val_main_v21 (F := Ideal) x0 x1 x2 = score x0 x1 x2 := by
  funext j
  obtain ⟨q, p, rfl⟩ : ∃ (q p : Fin 64), j = ix2 q p := ⟨j 0, j 1, eq_ix2 j⟩
  refine (Read.val_main_v21_apply x0 x1 x2 (ix2 q p)).trans ?_
  rw [Read.val_main_cst_4_apply]
  refine (congrArg (· + _) Ideal.ofBits_zero_f32).trans ?_
  rw [zero_add]
  show _ = ∑ i : Fin 32, (Finset.univ : Finset (Fin 512)).fold max maxStart
    (fun j => ∑ h : Fin 128, docEmb x1 x2 p j h * queryEmb x0 x2 q i h)
  refine Finset.sum_congr rfl fun i _ => ?_
  have e : Read.idx_main_v21 (ix2 q p) i = ix3 q p i :=
    funext fun a => Fin.ext (by match a with | ⟨0, _⟩ => rfl | ⟨1, _⟩ => rfl | ⟨2, _⟩ => rfl)
  rw [e, ref_best]

end Cert.ReferenceIdeal.RefValue

end
-- ==== Proof.lean ====
/-
  Late-interaction retrieval scores: a two-launch kernel against its plain reference, on the extended reals.

  Both programs project every token's 768 hidden features on the 128 rows of `W`, divide each projection by its
  Euclidean norm (kept above the same small floor), and score a query against a document by summing, over the query's 32
  tokens, the largest inner product with the document's 512 tokens (Proof/Spec.lean, `score`).  The reference does this
  on whole arrays.  The kernel flattens the queries to 2048 rows and computes their unit vectors in a first launch, two
  blocks of 1024 rows; a second launch takes the documents eight at a time, computes their unit vectors, multiplies them
  against the resident query unit vectors in four chunks of sixteen queries, takes the maxima and the sums, and writes an
  8 × 64 block of document-major scores; a final transpose gives the query-major array.  Read on the extended reals the
  two are the same sums, folds of `max`, quotients and square roots of the same arguments — no law beyond re-indexing
  is used, so the finiteness of the inputs is never opened.

  The three frames are the generated ones (the reference's is its run with the result dropped); the idealization
  rewrote nothing, so `preserves` is `True`; for `algebraic` the kernel's run ends with `score` of its arguments in the
  result (Proof/KernelValue.lean) and the reference's run ends with its last stage, which is `score` of its arguments
  (Proof/RefScore.lean), and the arguments agree.
-/
import proofs.«134453_j1288490189594_2_alg».proof.Defs
import proofs.«134453_j1288490189594_2_alg».proof.Proof.Gen.Kernel
import proofs.«134453_j1288490189594_2_alg».proof.Proof.Gen.Kernel.Skeleton
import proofs.«134453_j1288490189594_2_alg».proof.Proof.Gen.Kernel.Launch
import proofs.«134453_j1288490189594_2_alg».proof.Proof.Gen.Kernel.Points
import proofs.«134453_j1288490189594_2_alg».proof.Proof.Gen.Kernel.Frame
import proofs.«134453_j1288490189594_2_alg».proof.Proof.Gen.KernelIdeal
import proofs.«134453_j1288490189594_2_alg».proof.Proof.Gen.KernelIdeal.Skeleton
import proofs.«134453_j1288490189594_2_alg».proof.Proof.Gen.KernelIdeal.Launch
import proofs.«134453_j1288490189594_2_alg».proof.Proof.Gen.KernelIdeal.Points
import proofs.«134453_j1288490189594_2_alg».proof.Proof.Gen.KernelIdeal.Frame
import proofs.«134453_j1288490189594_2_alg».proof.Proof.Gen.ReferenceIdeal
import proofs.«134453_j1288490189594_2_alg».proof.Proof.Gen.ReferenceIdeal.Run
import proofs.«134453_j1288490189594_2_alg».proof.Proof.Gen.ReferenceIdeal.Read
import proofs.«134453_j1288490189594_2_alg».proof.Proof.Gen.Pre_finite_inputs
import proofs.«134453_j1288490189594_2_alg».proof.Proof.Spec
import proofs.«134453_j1288490189594_2_alg».proof.Proof.KernelValue
import proofs.«134453_j1288490189594_2_alg».proof.Proof.RefScore
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the score array of their arguments in the result, and the arguments agree. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v21_eq (F := Ideal) _ _ _).trans (Cert.ReferenceIdeal.RefValue.ref_score _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
